-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg4 : FVec F S128 .f32) (main_arg5 : FVec F S128x256 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1024x128 .f32) (main_arg1 : FVec F S1024x1024 .f32) (main_arg2 : FVec F S1024x1024 .f32) (main_arg3 : FVec F S128x128 .f32) (main_arg4 : FVec F S128 .f32) (main_arg5 : FVec F S128x256 .f32) (main_arg6 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S128x256 : Shape := ⟨2, ![128, 256]⟩
abbrev S128x1x128 : Shape := ⟨3, ![128, 1, 128]⟩
abbrev S1x128x128 : Shape := ⟨3, ![1, 128, 128]⟩
abbrev S128x128x128 : Shape := ⟨3, ![128, 128, 128]⟩
abbrev S1x1x128 : Shape := ⟨3, ![1, 1, 128]⟩
abbrev S1x128 : Shape := ⟨2, ![1, 128]⟩

abbrev nBuf : Space → Nat
  | .hbm => 14
  | .vmem => 19
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S1024x1024, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S1024x128, .f32⟩
  | .hbm, ⟨12, _⟩ => ⟨S1024x128, .f32⟩
  | .hbm, ⟨13, _⟩ => ⟨S1024x128, .f32⟩
  | .local _ .vmem, ⟨0, _⟩ => ⟨S1024x128, .f32⟩
  | .local _ .vmem, ⟨1, _⟩ => ⟨S128x128, .f32⟩
  | .local _ .vmem, ⟨2, _⟩ => ⟨S128x128, .f32⟩
  | .local _ .vmem, ⟨3, _⟩ => ⟨S1024x128, .f32⟩
  | .local _ .vmem, ⟨4, _⟩ => ⟨S1024x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_14 : BitVec 32 := 0#32
  let v31 : BitVec 1 := Scalar.cmpi .ne v30 c0_i32_14
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128_S1x1x128 : S128.ShapeCasts S1x1x128
  broadcasts_S1x1x128_S128x128x128 : S1x1x128.Broadcasts S128x128x128
  reduces_S128x128x128_S128x128 : S128x128x128.Reduces [2] S128x128
  shapeCasts_S128_S1x128 : S128.ShapeCasts S1x128
  broadcasts_S1x128_S128x128 : S1x128.Broadcasts S128x128
  dot_S1024x128_S128x128_S1024x128_1_0_0_1_n_n_wf : DotDims.WF S1024x128 S128x128 S1024x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .f32 = 32 ∨ (Rect.block (s := S1024x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S1024x128.size a
  hwx1_0 : ∀ i : grid1.Coords, EltTy.bits .f32 = 32 ∨ (Rect.block (s := S1024x128) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S1024x128.size a
  hwx1_1 : ∀ i : grid1.Coords, EltTy.bits .f32 = 32 ∨ (Rect.block (s := S1024x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S1024x1024.size a
  hwx1_3 : ∀ i : grid1.Coords, EltTy.bits .f32 = 32 ∨ (Rect.block (s := S1024x1024) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S1024x128.size a
  hwx1_4 : ∀ i : grid1.Coords, EltTy.bits .f32 = 32 ∨ (Rect.block (s := S1024x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S1024x128.size a
  hwx1_7 : ∀ i : grid1.Coords, EltTy.bits .f32 = 32 ∨ (Rect.block (s := S1024x128) S128x128.size (cc1_transform_7 i) (hinb1_7 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1024x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1024x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4_0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S128x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S128x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S128x256 : Shape := ⟨2, ![128, 256]⟩
abbrev S1x1024x128 : Shape := ⟨3, ![1, 1024, 128]⟩
abbrev S1024x1x128 : Shape := ⟨3, ![1024, 1, 128]⟩
abbrev S1024x1024x128 : Shape := ⟨3, ![1024, 1024, 128]⟩
abbrev S1x1x128 : Shape := ⟨3, ![1, 1, 128]⟩
abbrev S_ : Shape := ⟨0, ![]⟩
abbrev S1024x1024x1 : Shape := ⟨3, ![1024, 1024, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x1024, .f32⟩
  | .hbm, ⟨2, _⟩ => ⟨S1024x1024, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S1024x128, .f32⟩
  | .hbm, ⟨10, _⟩ => ⟨S128x128, .f32⟩
  | .hbm, ⟨11, _⟩ => ⟨S128x128, .f32⟩
  | .hbm, ⟨12, _⟩ => ⟨S1024x128, .f32⟩
  | .hbm, ⟨13, _⟩ => ⟨S1x1024x128, .f32⟩
  | .hbm, ⟨14, _⟩ => ⟨S1024x1x128, .f32⟩
  | .hbm, ⟨15, _⟩ => ⟨S1024x1024x128, .f32⟩
  | .hbm, ⟨16, _⟩ => ⟨S1024x1024x128, .f32⟩
  | .hbm, ⟨17, _⟩ => ⟨S1024x1024x128, .f32⟩
  | .hbm, ⟨18, _⟩ => ⟨S1x1x128, .f32⟩
  | .hbm, ⟨19, _⟩ => ⟨S1024x1024x128, .f32⟩
  | .hbm, ⟨20, _⟩ => ⟨S1024x1024x128, .f32⟩
  | .hbm, ⟨21, _⟩ => ⟨S1024x1024x128, .f32⟩
  | .hbm, ⟨22, _⟩ => ⟨S1024x1024x128, .f32⟩
  | .hbm, ⟨23, _⟩ => ⟨S_, .f32⟩
  | .hbm, ⟨24, _⟩ => ⟨S1024x1024x128, .f32⟩
  | .hbm, ⟨25, _⟩ => ⟨S1024x1024x128, .f32⟩
  | .hbm, ⟨26, _⟩ => ⟨S_, .f32⟩
  | .hbm, ⟨27, _⟩ => ⟨S1024x1024x128, .f32⟩
  | .hbm, ⟨28, _⟩ => ⟨S1024x1024x128, .f32⟩
  | .hbm, ⟨29, _⟩ => ⟨S1024x1024x1, .f32⟩
  | .hbm, ⟨30, _⟩ => ⟨S1024x1024x128, .f32⟩
  | .hbm, ⟨31, _⟩ => ⟨S1024x1024x128, .f32⟩
  | .hbm, ⟨32, _⟩ => ⟨S_, .f32⟩
  | .hbm, ⟨33, _⟩ => ⟨S1024x1024, .f32⟩
  | .hbm, ⟨34, _⟩ => ⟨S1024x128, .f32⟩
  | .hbm, ⟨35, _⟩ => ⟨S1024x128, .f32⟩
  | .hbm, ⟨36, _⟩ => ⟨S1x128, .f32⟩
  | .hbm, ⟨37, _⟩ => ⟨S1024x128, .f32⟩
  | .hbm, ⟨38, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  bcast_S1024x128_S1x1024x128_1_2 : S1024x128.BroadcastsInDim S1x1024x128 (![1, 2] : Fin 2 → Fin S1x1024x128.rank)
  bcast_S1024x128_S1024x1x128_0_2 : S1024x128.BroadcastsInDim S1024x1x128 (![0, 2] : Fin 2 → Fin S1024x1x128.rank)
  bcast_S1x1024x128_S1024x1024x128_0_1_2 : S1x1024x128.BroadcastsInDim S1024x1024x128 (![0, 1, 2] : Fin 3 → Fin S1024x1024x128.rank)
  bcast_S1024x1x128_S1024x1024x128_0_1_2 : S1024x1x128.BroadcastsInDim S1024x1024x128 (![0, 1, 2] : Fin 3 → Fin S1024x1024x128.rank)
  bcast_S128_S1x1x128_2 : S128.BroadcastsInDim S1x1x128 (![2] : Fin 1 → Fin S1x1x128.rank)
  bcast_S1x1x128_S1024x1024x128_0_1_2 : S1x1x128.BroadcastsInDim S1024x1024x128 (![0, 1, 2] : Fin 3 → Fin S1024x1024x128.rank)
  bcast_S_S1024x1024x128 : S_.BroadcastsInDim S1024x1024x128 (![] : Fin 0 → Fin S1024x1024x128.rank)
  bcast_S1024x1024_S1024x1024x1_0_1 : S1024x1024.BroadcastsInDim S1024x1024x1 (![0, 1] : Fin 2 → Fin S1024x1024x1.rank)
  bcast_S1024x1024x1_S1024x1024x128_0_1_2 : S1024x1024x1.BroadcastsInDim S1024x1024x128 (![0, 1, 2] : Fin 3 → Fin S1024x1024x128.rank)
  reducesTo_S1024x1024x128_S1024x1024_d2 : S1024x1024x128.ReducesTo [2] S1024x1024
  h_S_ : 0 < S_.numel
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

class Facts : Prop extends Facts₀ where

variable [Facts]
-- ==== Proof.KernelProj.lean ====
/-
  The first kernel region: one grid point, which loads the node features [1024,128] and the two halves of the
  gate's weights (each [128,128], already transposed), and stores the two products x * wa and x * wb, each
  [1024,128], through whole-block stores. Stated for any float instance and at a parameter V, the contents the
  region finds in the buffers: what each window's staging buffer holds after the body, the body's triple, the
  pipeline's proof data and its body obligation.
-/
import proofs.«170047_j79989470921007_1_alg».proof.Proof.Gen.Kernel.Launch
import proofs.«170047_j79989470921007_1_alg».proof.Proof.Gen.Kernel.Skeleton
import proofs.«170047_j79989470921007_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at the one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole [1024,128] block and the whole [128,128] block: the body's only rectangles. -/
abbrev rX : Rect S1024x128 := Rect.unit (s := S1024x128) ![0, 0] S1024x128.size inb_S1024x128_S1024x128_0_0
abbrev rW : Rect S128x128 := Rect.unit (s := S128x128) ![0, 0] S128x128.size inb_S128x128_S128x128_0_0

/-- What the body leaves in the first product's buffer: its one store, of x * wa. -/
def out0_3 (x0 : Vec F S1024x128 .f32) (x1 : Vec F S128x128 .f32) : Vec F S1024x128 .f32 :=
  View.canon [⟨rX, k0_pay2 (View.ld x0 rX) (View.ld x1 rW)⟩]
/-- And in the second product's: its one store, of x * wb. -/
def out0_4 (x0 : Vec F S1024x128 .f32) (x2 : Vec F S128x128 .f32) : Vec F S1024x128 .f32 :=
  View.canon [⟨rX, k0_pay3 (View.ld x0 rX) (View.ld x2 rW)⟩]

/-- One whole-block store covers the block. -/
theorem cover0 (p0 : Vec F S1024x128 .f32) (y : S1024x128.Idx) :
    ∃ pc ∈ ([⟨rX, p0⟩] : List (View.Piece (Elt F) S1024x128 .f32)), y ∈ pc.1.set :=
  View.cover_of_tiled [⟨rX, p0⟩] S1024x128.size (by rfl) y

set_option maxHeartbeats 1000000 in
/-- The body on whole staging memrefs, the inputs' at known contents and the outputs' at anything, runs to the
    continuation with the inputs' unchanged and each output's at its product. -/
theorem sound_kernel0 (c : Dev nD) (E : Set ℕ) (i : grid0.Coords)
    (arg1 : Memref sig .tc .vmem S1024x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1024x128 .f32) (harg4 : arg4.IsWhole)
    (arg5 : Memref sig .tc .vmem S1024x128 .f32) (harg5 : arg5.IsWhole)
    (x0 : Vec F S1024x128 .f32) (x1 x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- The proof data of the first pipeline on core c: the arrays as the region finds them; after the body each
    input's buffer at its block, each output's at its product of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at the point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Proj

end
-- ==== Proof.KernelConvRuns.lean ====
/-
  The second kernel region, over an 8 x 8 grid of points (i, j): at every point the body adds to a scratch
  accumulator [128,128] the product of the gated adjacency block (i, j) with the feature block j; at j = 0 it first
  clears the accumulator, and at j = 7 it also stores the accumulator times W plus the bias into output block i.
  Here: the two branch conditions in closed form over the grid, where the output window is idle, the names of the
  staging and scratch memrefs, and the body's run in each of the three cases j = 0, 0 < j < 7, j = 7, for any
  float instance; each run comes with the pieces it leaves in the scratch and in the output's buffer.
-/
import proofs.«170047_j79989470921007_1_alg».proof.Proof.Gen.Kernel.Launch
import proofs.«170047_j79989470921007_1_alg».proof.Proof.Gen.Kernel.Skeleton
import proofs.«170047_j79989470921007_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (clear the accumulator) is taken: the scalar chain of the body on the second coordinate. -/
abbrev cond1_0 (i : grid1.Coords) : Prop := (Scalar.cmpi .ne (Scalar.extui (Scalar.cmpi .eq (BitVec.ofNat 32 (i 1).val) 0#32)) 0#32) = 1#1
/-- It is taken exactly at the points with j = 0. -/
theorem hcond1_0 : ∀ t : Fin cfg1.N, cond1_0 (grid1.coords t) ↔ t.val % 8 = 0 :=
  (by decide +kernel : ∀ t : Fin grid1.N, cond1_0 (grid1.coords t) ↔ t.val % 8 = 0)
/-- The second branch (store the output block) is taken. -/
abbrev cond1_1 (i : grid1.Coords) : Prop := k1_cond2 i = 1#1
/-- It is taken exactly at the points with j = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-- No input window is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- The output window is idle, and not written back, at the points with j < 7; live at j = 7. -/
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

/-- A view through which the output buffer's contents are stated. -/
abbrev VO1_7 : View sig .tc .vmem S128x128 .f32 := (Memref.whole cc1_stg7_0 : Memref sig .tc .vmem S128x128 .f32).view
/-- Each window's current staging memref at point t, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x128 .f32 := win1_7.stage (cfg1.slots t 7)
abbrev hs1_7 (t : Fin cfg1.N) : (ms1_7 t).IsWhole := hstage1_7 ((cfg1.slots t 7).cast nbuf1_7)
/-- The accumulator: a whole scoped buffer of the kernel's own. -/
abbrev scM1_0 : Memref sig .tc .vmem S128x128 .f32 := Memref.whole cc1_scratch0
abbrev VS1_0 : View sig .tc .vmem S128x128 .f32 := scM1_0.view

/-- The scoped buffers this region does not stage: the first region's five staging buffers, each at some
    contents, beside the accumulator at what S says of it. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ S)

/-- The region's invariant as the launch hands it over: those buffers with the accumulator at anything, and the
    generator register at some state. -/
theorem PhiA1_eq (c : Dev nD) :
    (Pipeline.ΦA spec1 c : sProp 𝕄)
      = iprop(scopedWith c (iprop(∃ d, owns (c : Thread nD τ) scM1_0 fullShare d)) ∗ (∃ r, prngReg c r)) := by
  unfold Pipeline.ΦA scopedWith; rw [scopedRest1_eq]; simp only [scM1_0, owns_whole]; try rfl

set_option maxHeartbeats 2000000 in
/-- The body at a point with j = 0: the inputs' memrefs at their contents, the output's handed back as found,
    the accumulator found at anything and left with its pieces written (the clearing store, then the sum). -/
noncomputable def kernelRun1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 x1 : Vec F S128x128 .f32) (x2 : Vec F S128 .f32) (x3 x4 x5 : Vec F S128x128 .f32) (x6 : Vec F S128 .f32) :
    { LS0 : List (View.Piece (Elt F) S128x128 .f32) //
      ∀ (xi7 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__gconv_kernel i arg2 harg2 arg3 harg3 arg4 harg4 arg5 harg5 arg6 harg6 arg7 harg7 arg8 harg8 arg9 harg9 arg10 harg10) K } := by
  refine ⟨?_, fun xi7 E K => ?run⟩
  case run =>
    simp only [cc1__gconv_kernel_eq_skeleton]; unfold cc1__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

set_option maxHeartbeats 2000000 in
/-- The body at a point with 0 < j < 7: as before, the accumulator found at what the point before left. -/
noncomputable def kernelRun1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 x1 : Vec F S128x128 .f32) (x2 : Vec F S128 .f32) (x3 x4 x5 : Vec F S128x128 .f32) (x6 : Vec F S128 .f32) (xs0 : Vec F S128x128 .f32) :
    { LS0 : List (View.Piece (Elt F) S128x128 .f32) //
      ∀ (xi7 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__gconv_kernel i arg2 harg2 arg3 harg3 arg4 harg4 arg5 harg5 arg6 harg6 arg7 harg7 arg8 harg8 arg9 harg9 arg10 harg10) K } := by
  refine ⟨?_, fun xi7 E K => ?run⟩
  case run =>
    simp only [cc1__gconv_kernel_eq_skeleton]; unfold cc1__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

set_option maxHeartbeats 2000000 in
/-- The body at a point with j = 7: the accumulator as before, and the output's buffer, found at anything, left
    with its one piece written. -/
noncomputable def kernelRun1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 x1 : Vec F S128x128 .f32) (x2 : Vec F S128 .f32) (x3 x4 x5 : Vec F S128x128 .f32) (x6 : Vec F S128 .f32) (xs0 : Vec F S128x128 .f32) :
    Σ' (L7 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__gconv_kernel i arg2 harg2 arg3 harg3 arg4 harg4 arg5 harg5 arg6 harg6 arg7 harg7 arg8 harg8 arg9 harg9 arg10 harg10) K } := by
  refine ⟨?_, ?_, fun E K => ?run⟩
  case run =>
    simp only [cc1__gconv_kernel_eq_skeleton]; unfold cc1__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Conv

end
-- ==== Proof.KernelConv.lean ====
/-
  The second kernel region's proof data, for any float instance and at a parameter V (the contents the region
  finds): what the accumulator holds after each point, by recursion on the point — at j = 0 the cleared
  accumulator plus the point's product, at j > 0 what the point before left plus the point's product —; what the
  output's buffer holds after a point with j = 7; the region's invariant, which carries the accumulator from
  point to point; and the body obligation at every point.
-/
import proofs.«170047_j79989470921007_1_alg».proof.Proof.Gen.Kernel.Launch
import proofs.«170047_j79989470921007_1_alg».proof.Proof.Gen.Kernel.Skeleton
import proofs.«170047_j79989470921007_1_alg».proof.Proof.Gen.Kernel.Points
import proofs.«170047_j79989470921007_1_alg».proof.Proof.KernelConvRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- At j = 0 the two stores into the accumulator cover it. -/
theorem scover1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 x1 : Vec F S128x128 .f32) (x2 : Vec F S128 .f32) (x3 x4 x5 : Vec F S128x128 .f32) (x6 : Vec F S128 .f32) (y : S128x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5 x6).1 S128x128.size (by sl_kernel_rfl) y
/-- What the accumulator holds after a point with j = 0. -/
def sout1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 x1 : Vec F S128x128 .f32) (x2 : Vec F S128 .f32) (x3 x4 x5 : Vec F S128x128 .f32) (x6 : Vec F S128 .f32) : Vec F S128x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 x5 x6).1)

/-- At 0 < j < 7 the one store into the accumulator covers it. -/
theorem scover1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 x1 : Vec F S128x128 .f32) (x2 : Vec F S128 .f32) (x3 x4 x5 : Vec F S128x128 .f32) (x6 : Vec F S128 .f32) (xs0 : Vec F S128x128 .f32) (y : S128x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 x6 xs0).1 S128x128.size (by sl_kernel_rfl) y
/-- What the accumulator holds after a point with 0 < j < 7, from what the point before left. -/
def sout1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 x1 : Vec F S128x128 .f32) (x2 : Vec F S128 .f32) (x3 x4 x5 : Vec F S128x128 .f32) (x6 : Vec F S128 .f32) (xs0 : Vec F S128x128 .f32) : Vec F S128x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 x5 x6 xs0).1)

/-- At j = 7 the one store into the accumulator covers it, and the one store into the output's buffer covers that. -/
theorem scover1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 x1 : Vec F S128x128 .f32) (x2 : Vec F S128 .f32) (x3 x4 x5 : Vec F S128x128 .f32) (x6 : Vec F S128 .f32) (xs0 : Vec F S128x128 .f32) (y : S128x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).2.1 S128x128.size (by sl_kernel_rfl) y
theorem cover1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 x1 : Vec F S128x128 .f32) (x2 : Vec F S128 .f32) (x3 x4 x5 : Vec F S128x128 .f32) (x6 : Vec F S128 .f32) (xs0 : Vec F S128x128 .f32) (y : S128x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).1 S128x128.size (by sl_kernel_rfl) y
/-- What the accumulator holds after a point with j = 7. -/
def sout1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 x1 : Vec F S128x128 .f32) (x2 : Vec F S128 .f32) (x3 x4 x5 : Vec F S128x128 .f32) (x6 : Vec F S128 .f32) (xs0 : Vec F S128x128 .f32) : Vec F S128x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 x5 x6 xs0).2.1)
/-- What the output's buffer holds after a point with j = 7. -/
def out1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 x1 : Vec F S128x128 .f32) (x2 : Vec F S128 .f32) (x3 x4 x5 : Vec F S128x128 .f32) (x6 : Vec F S128 .f32) (xs0 : Vec F S128x128 .f32) : Vec F S128x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 x6 xs0).1)

/-! ## The same at a grid point, on the point's memrefs and blocks -/

def accA (c : Dev nD) (t : Fin cfg1.N) (h0 : t.val % 8 = 0) (h1 : ¬t.val % 8 = 7) : Vec F S128x128 .f32 :=
  sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)
def accB (c : Dev nD) (t : Fin cfg1.N) (h0 : ¬t.val % 8 = 0) (h1 : ¬t.val % 8 = 7) (prev : Vec F S128x128 .f32) : Vec F S128x128 .f32 :=
  sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) prev
def accC (c : Dev nD) (t : Fin cfg1.N) (h0 : ¬t.val % 8 = 0) (h1 : t.val % 8 = 7) (prev : Vec F S128x128 .f32) : Vec F S128x128 .f32 :=
  sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) prev
def outC (c : Dev nD) (t : Fin cfg1.N) (h0 : ¬t.val % 8 = 0) (h1 : t.val % 8 = 7) (prev : Vec F S128x128 .f32) : Vec F S128x128 .f32 :=
  out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) prev

/-- THE ACCUMULATION. After the body at position n: the output's buffer (first component; it matters only at
    j = 7, where the body stores it — elsewhere the window is idle and the component repeats the accumulator) and
    the accumulator (second component), the case chosen by n mod 8, a later point starting from what the point
    before left. -/
def outsAt1 (c : Dev nD) : (n : ℕ) → n < cfg1.N → Vec F S128x128 .f32 × Vec F S128x128 .f32
  | 0, hn => (accA V c ⟨0, hn⟩ (Nat.zero_mod _) (by show ¬ (0 % 8 = 7); decide), accA V c ⟨0, hn⟩ (Nat.zero_mod _) (by show ¬ (0 % 8 = 7); decide))
  | n + 1, hn =>
    if h0 : (n + 1) % 8 = 0 then
      (accA V c ⟨n + 1, hn⟩ h0 (fun h => by have h' : (n + 1) % 8 = 7 := h; omega), accA V c ⟨n + 1, hn⟩ h0 (fun h => by have h' : (n + 1) % 8 = 7 := h; omega))
    else
      if h1 : (n + 1) % 8 = 7 then
        (outC V c ⟨n + 1, hn⟩ h0 h1 (outsAt1 c n (Nat.lt_of_succ_lt hn)).2, accC V c ⟨n + 1, hn⟩ h0 h1 (outsAt1 c n (Nat.lt_of_succ_lt hn)).2)
      else
        (accB V c ⟨n + 1, hn⟩ h0 h1 (outsAt1 c n (Nat.lt_of_succ_lt hn)).2, accB V c ⟨n + 1, hn⟩ h0 h1 (outsAt1 c n (Nat.lt_of_succ_lt hn)).2)

theorem outsAt1_A (c : Dev nD) (t : Fin cfg1.N) (h0 : t.val % 8 = 0) (h1 : ¬t.val % 8 = 7) :
    outsAt1 V c t.val t.isLt = (accA V c t h0 h1, accA V c t h0 h1) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (accB V c t h0 h1 (outsAt1 V c (t.val - 1) (Nat.lt_of_le_of_lt (Nat.sub_le _ _) t.isLt)).2, accB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC V c t h0 h1 (outsAt1 V c (t.val - 1) (Nat.lt_of_le_of_lt (Nat.sub_le _ _) t.isLt)).2, accC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region's invariant before position n: before the first point what the launch hands over (the accumulator
    at anything); afterwards the accumulator at what the point before left, the other scoped buffers at anything,
    the generator register at some state. -/
def PhiS (c : Dev nD) : (n : ℕ) → n ≤ cfg1.N → sProp 𝕄
  | 0, _ => Pipeline.ΦA spec1 c
  | n + 1, hn => iprop(scopedWith c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scopedWith c (owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(scopedWith c (owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; n mod 8 says which case the point is in; the
    invariant hands the body the accumulator at what the point before left (at anything at the very first point)
    and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hN : t.val < 64 := lt_of_lt_of_eq t.isLt (show cfg1.N = 64 from N_1)
  by_cases h0 : t.val % 8 = 0
  · have h1 : ¬t.val % 8 = 7 := by omega
    rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
    rw [outsAt1_A V c t h0 h1]
    unfold accA sout1_A; (try dsimp only)
    by_cases hz : t.val = 0
    · rw [PhiS_castSucc V c t, PhiS_zero V c _ _ hz, PhiA1_eq]
      unfold scopedWith
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc V c t, PhiS_pos V c _ _ hz]
      unfold scopedWith
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      iintro ⟨H0, H1, H2, H3, H4, H5, H6, H7, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 8 = 7
    · rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold outC accC out1_C sout1_C; (try dsimp only)
      rw [PhiS_castSucc V c t, PhiS_pos V c _ _ hz]
      unfold scopedWith
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_C c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C c _ _ _ _ _ _ _ _ _ _ _ _ _ _ _ _ _ _ _ _ _ _ _ _ _ _ _ _ _)
    · rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold accB sout1_B; (try dsimp only)
      rw [PhiS_castSucc V c t, PhiS_pos V c _ _ hz]
      unfold scopedWith
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives that back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  unfold scopedWith
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

end Cert.Kernel.Conv

end
-- ==== Proof.KernelWhole.lean ====
/-
  The whole program as a run: four host operations (the two halves of the gate's weights cut out and
  transposed), the first kernel region (the two products), the second (the gated convolution), for any float
  instance. The buffer contents at each boundary are a fold from the launch memory: after the host operations,
  after the first region (its arrays at what its write-backs leave, every other buffer as before), after the
  second. Every weakly fair execution terminates and ends with every unscoped buffer at the last of these;
  each argument array, read back through the fold, holds its launch contents.
-/
import proofs.«170047_j79989470921007_1_alg».proof.Proof.Gen.Kernel.Launch
import proofs.«170047_j79989470921007_1_alg».proof.Proof.Gen.Kernel.Skeleton
import proofs.«170047_j79989470921007_1_alg».proof.Proof.Gen.Kernel.Points
import proofs.«170047_j79989470921007_1_alg».proof.Proof.KernelProj
import proofs.«170047_j79989470921007_1_alg».proof.Proof.KernelConv
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the four host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit (the second region's entry: no host operation stands between them). -/
def W2 (c : Dev nD) : Valuation τ sig (Elt F) :=
  Pipeline.withArrays spec0 c (W1 m ρ c) fun w => (Proj.dat0 (V1 m ρ) c).arrAt w cfg0.N
theorem W2_arr (c : Dev nD) (w : Fin cfg0.W) :
    W2 m ρ c (Proc.devRef .tc (Pipeline.arrRef spec0 w)) = (Proj.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: the end of the program. -/
def W3 (c : Dev nD) : Valuation τ sig (Elt F) :=
  Pipeline.withArrays spec1 c (W2 m ρ c) fun w => (Conv.dat1 (V2 m ρ) c).arrAt w cfg1.N
theorem W3_arr (c : Dev nD) (w : Fin cfg1.W) :
    W3 m ρ c (Proc.devRef .tc (Pipeline.arrRef spec1 w)) = (Conv.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Conv.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: no host operation and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 4).trans (((Conv.dat1 (V2 m ρ) c).arrAt_in 4 rfl _).trans (Conv.A_eq1 (V2 m ρ) c 4))
    _ = W1 m ρ c (Proc.devRef .tc main_arg0) := (W2_arr m ρ c 0).trans (((Proj.dat0 (V1 m ρ) c).arrAt_in 0 rfl _).trans (Proj.A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 3).trans (((Conv.dat1 (V2 m ρ) c).arrAt_in 3 rfl _).trans (Conv.A_eq1 (V2 m ρ) c 3))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 5).trans (((Conv.dat1 (V2 m ρ) c).arrAt_in 5 rfl _).trans (Conv.A_eq1 (V2 m ρ) c 5))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 6).trans (((Conv.dat1 (V2 m ρ) c).arrAt_in 6 rfl _).trans (Conv.A_eq1 (V2 m ρ) c 6))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 2).trans (((Conv.dat1 (V2 m ρ) c).arrAt_in 2 rfl _).trans (Conv.A_eq1 (V2 m ρ) c 2))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and what rides beside the buffers -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Proj.dat0 (V1 m ρ) c
  | ⟨1, _⟩ => fun c => Conv.dat1 (V2 m ρ) c
abbrev 𝒱₀ : Variants := Variants.none
abbrev L : GSem nD τ sig → Finset Unit := fun _ => ∅
abbrev lv : GSem nD τ sig → Unit → ℕ := fun _ _ => 0
/-- The generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_allocates_nothing : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W2, left at W3. Its invariant takes the scoped rest
    and the generator register in, carries the accumulator from point to point, and gives both back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Conv.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Conv.hin1 (V2 m ρ) c)
    unfold Pipeline.ΦA
    iintro ⟨Hp, -, Hr⟩
    isplitl [Hr]; · iexact Hr
    iexact Hp
  hout c := by
    rw [Pipeline.ownSems0_none]
    refine BIBase.Entails.trans (Conv.hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_allocates_nothing (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters, every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

/-- The result array ends at what the second region's write-backs leave in it. -/
theorem result_at (r : PUnit × MemSt nD τ sig (Elt F)) (h : ∀ c : Dev nD, ∀ b ∈ Pipeline.ucRefs τ sig, r.2.mem (((c : Thread nD τ)).1, b) = W3 m ρ c b) (c : Dev nD) :
    r.2.mem ((c.tc : Thread nD τ).loc main_v5) = (Conv.dat1 (V2 m ρ) c).arrAt 7 cfg1.N :=
  (h c _ (mem_uc main_v5 (by decide))).trans (W3_arr m ρ c 7)

end Cert.Kernel.Whole

end
-- ==== Proof.KernelIdealProj.lean ====
/-
  The first kernel region: one grid point, which loads the node features [1024,128] and the two halves of the
  gate's weights (each [128,128], already transposed), and stores the two products x * wa and x * wb, each
  [1024,128], through whole-block stores. Stated for any float instance and at a parameter V, the contents the
  region finds in the buffers: what each window's staging buffer holds after the body, the body's triple, the
  pipeline's proof data and its body obligation.
-/
import proofs.«170047_j79989470921007_1_alg».proof.Proof.Gen.KernelIdeal.Launch
import proofs.«170047_j79989470921007_1_alg».proof.Proof.Gen.KernelIdeal.Skeleton
import proofs.«170047_j79989470921007_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at the one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole [1024,128] block and the whole [128,128] block: the body's only rectangles. -/
abbrev rX : Rect S1024x128 := Rect.unit (s := S1024x128) ![0, 0] S1024x128.size inb_S1024x128_S1024x128_0_0
abbrev rW : Rect S128x128 := Rect.unit (s := S128x128) ![0, 0] S128x128.size inb_S128x128_S128x128_0_0

/-- What the body leaves in the first product's buffer: its one store, of x * wa. -/
def out0_3 (x0 : Vec F S1024x128 .f32) (x1 : Vec F S128x128 .f32) : Vec F S1024x128 .f32 :=
  View.canon [⟨rX, k0_pay2 (View.ld x0 rX) (View.ld x1 rW)⟩]
/-- And in the second product's: its one store, of x * wb. -/
def out0_4 (x0 : Vec F S1024x128 .f32) (x2 : Vec F S128x128 .f32) : Vec F S1024x128 .f32 :=
  View.canon [⟨rX, k0_pay3 (View.ld x0 rX) (View.ld x2 rW)⟩]

/-- One whole-block store covers the block. -/
theorem cover0 (p0 : Vec F S1024x128 .f32) (y : S1024x128.Idx) :
    ∃ pc ∈ ([⟨rX, p0⟩] : List (View.Piece (Elt F) S1024x128 .f32)), y ∈ pc.1.set :=
  View.cover_of_tiled [⟨rX, p0⟩] S1024x128.size (by rfl) y

set_option maxHeartbeats 1000000 in
/-- The body on whole staging memrefs, the inputs' at known contents and the outputs' at anything, runs to the
    continuation with the inputs' unchanged and each output's at its product. -/
theorem sound_kernel0 (c : Dev nD) (E : Set ℕ) (i : grid0.Coords)
    (arg1 : Memref sig .tc .vmem S1024x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1024x128 .f32) (harg4 : arg4.IsWhole)
    (arg5 : Memref sig .tc .vmem S1024x128 .f32) (harg5 : arg5.IsWhole)
    (x0 : Vec F S1024x128 .f32) (x1 x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- The proof data of the first pipeline on core c: the arrays as the region finds them; after the body each
    input's buffer at its block, each output's at its product of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at the point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Proj

end
-- ==== Proof.KernelIdealConvRuns.lean ====
/-
  The second kernel region, over an 8 x 8 grid of points (i, j): at every point the body adds to a scratch
  accumulator [128,128] the product of the gated adjacency block (i, j) with the feature block j; at j = 0 it first
  clears the accumulator, and at j = 7 it also stores the accumulator times W plus the bias into output block i.
  Here: the two branch conditions in closed form over the grid, where the output window is idle, the names of the
  staging and scratch memrefs, and the body's run in each of the three cases j = 0, 0 < j < 7, j = 7, for any
  float instance; each run comes with the pieces it leaves in the scratch and in the output's buffer.
-/
import proofs.«170047_j79989470921007_1_alg».proof.Proof.Gen.KernelIdeal.Launch
import proofs.«170047_j79989470921007_1_alg».proof.Proof.Gen.KernelIdeal.Skeleton
import proofs.«170047_j79989470921007_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (clear the accumulator) is taken: the scalar chain of the body on the second coordinate. -/
abbrev cond1_0 (i : grid1.Coords) : Prop := (Scalar.cmpi .ne (Scalar.extui (Scalar.cmpi .eq (BitVec.ofNat 32 (i 1).val) 0#32)) 0#32) = 1#1
/-- It is taken exactly at the points with j = 0. -/
theorem hcond1_0 : ∀ t : Fin cfg1.N, cond1_0 (grid1.coords t) ↔ t.val % 8 = 0 :=
  (by decide +kernel : ∀ t : Fin grid1.N, cond1_0 (grid1.coords t) ↔ t.val % 8 = 0)
/-- The second branch (store the output block) is taken. -/
abbrev cond1_1 (i : grid1.Coords) : Prop := k1_cond2 i = 1#1
/-- It is taken exactly at the points with j = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-- No input window is ever idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- The output window is idle, and not written back, at the points with j < 7; live at j = 7. -/
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

/-- A view through which the output buffer's contents are stated. -/
abbrev VO1_7 : View sig .tc .vmem S128x128 .f32 := (Memref.whole cc1_stg7_0 : Memref sig .tc .vmem S128x128 .f32).view
/-- Each window's current staging memref at point t, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x128 .f32 := win1_7.stage (cfg1.slots t 7)
abbrev hs1_7 (t : Fin cfg1.N) : (ms1_7 t).IsWhole := hstage1_7 ((cfg1.slots t 7).cast nbuf1_7)
/-- The accumulator: a whole scoped buffer of the kernel's own. -/
abbrev scM1_0 : Memref sig .tc .vmem S128x128 .f32 := Memref.whole cc1_scratch0
abbrev VS1_0 : View sig .tc .vmem S128x128 .f32 := scM1_0.view

/-- The scoped buffers this region does not stage: the first region's five staging buffers, each at some
    contents, beside the accumulator at what S says of it. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ S)

/-- The region's invariant as the launch hands it over: those buffers with the accumulator at anything, and the
    generator register at some state. -/
theorem PhiA1_eq (c : Dev nD) :
    (Pipeline.ΦA spec1 c : sProp 𝕄)
      = iprop(scopedWith c (iprop(∃ d, owns (c : Thread nD τ) scM1_0 fullShare d)) ∗ (∃ r, prngReg c r)) := by
  unfold Pipeline.ΦA scopedWith; rw [scopedRest1_eq]; simp only [scM1_0, owns_whole]; try rfl

set_option maxHeartbeats 2000000 in
/-- The body at a point with j = 0: the inputs' memrefs at their contents, the output's handed back as found,
    the accumulator found at anything and left with its pieces written (the clearing store, then the sum). -/
noncomputable def kernelRun1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 x1 : Vec F S128x128 .f32) (x2 : Vec F S128 .f32) (x3 x4 x5 : Vec F S128x128 .f32) (x6 : Vec F S128 .f32) :
    { LS0 : List (View.Piece (Elt F) S128x128 .f32) //
      ∀ (xi7 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__gconv_kernel i arg2 harg2 arg3 harg3 arg4 harg4 arg5 harg5 arg6 harg6 arg7 harg7 arg8 harg8 arg9 harg9 arg10 harg10) K } := by
  refine ⟨?_, fun xi7 E K => ?run⟩
  case run =>
    simp only [cc1__gconv_kernel_eq_skeleton]; unfold cc1__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

set_option maxHeartbeats 2000000 in
/-- The body at a point with 0 < j < 7: as before, the accumulator found at what the point before left. -/
noncomputable def kernelRun1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 x1 : Vec F S128x128 .f32) (x2 : Vec F S128 .f32) (x3 x4 x5 : Vec F S128x128 .f32) (x6 : Vec F S128 .f32) (xs0 : Vec F S128x128 .f32) :
    { LS0 : List (View.Piece (Elt F) S128x128 .f32) //
      ∀ (xi7 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1__gconv_kernel i arg2 harg2 arg3 harg3 arg4 harg4 arg5 harg5 arg6 harg6 arg7 harg7 arg8 harg8 arg9 harg9 arg10 harg10) K } := by
  refine ⟨?_, fun xi7 E K => ?run⟩
  case run =>
    simp only [cc1__gconv_kernel_eq_skeleton]; unfold cc1__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

set_option maxHeartbeats 2000000 in
/-- The body at a point with j = 7: the accumulator as before, and the output's buffer, found at anything, left
    with its one piece written. -/
noncomputable def kernelRun1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 x1 : Vec F S128x128 .f32) (x2 : Vec F S128 .f32) (x3 x4 x5 : Vec F S128x128 .f32) (x6 : Vec F S128 .f32) (xs0 : Vec F S128x128 .f32) :
    Σ' (L7 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__gconv_kernel i arg2 harg2 arg3 harg3 arg4 harg4 arg5 harg5 arg6 harg6 arg7 harg7 arg8 harg8 arg9 harg9 arg10 harg10) K } := by
  refine ⟨?_, ?_, fun E K => ?run⟩
  case run =>
    simp only [cc1__gconv_kernel_eq_skeleton]; unfold cc1__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Conv

end
-- ==== Proof.KernelIdealConv.lean ====
/-
  The second kernel region's proof data, for any float instance and at a parameter V (the contents the region
  finds): what the accumulator holds after each point, by recursion on the point — at j = 0 the cleared
  accumulator plus the point's product, at j > 0 what the point before left plus the point's product —; what the
  output's buffer holds after a point with j = 7; the region's invariant, which carries the accumulator from
  point to point; and the body obligation at every point.
-/
import proofs.«170047_j79989470921007_1_alg».proof.Proof.Gen.KernelIdeal.Launch
import proofs.«170047_j79989470921007_1_alg».proof.Proof.Gen.KernelIdeal.Skeleton
import proofs.«170047_j79989470921007_1_alg».proof.Proof.Gen.KernelIdeal.Points
import proofs.«170047_j79989470921007_1_alg».proof.Proof.KernelIdealConvRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- At j = 0 the two stores into the accumulator cover it. -/
theorem scover1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 x1 : Vec F S128x128 .f32) (x2 : Vec F S128 .f32) (x3 x4 x5 : Vec F S128x128 .f32) (x6 : Vec F S128 .f32) (y : S128x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5 x6).1 S128x128.size (by sl_kernel_rfl) y
/-- What the accumulator holds after a point with j = 0. -/
def sout1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 x1 : Vec F S128x128 .f32) (x2 : Vec F S128 .f32) (x3 x4 x5 : Vec F S128x128 .f32) (x6 : Vec F S128 .f32) : Vec F S128x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4 x5 x6).1)

/-- At 0 < j < 7 the one store into the accumulator covers it. -/
theorem scover1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 x1 : Vec F S128x128 .f32) (x2 : Vec F S128 .f32) (x3 x4 x5 : Vec F S128x128 .f32) (x6 : Vec F S128 .f32) (xs0 : Vec F S128x128 .f32) (y : S128x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 x6 xs0).1 S128x128.size (by sl_kernel_rfl) y
/-- What the accumulator holds after a point with 0 < j < 7, from what the point before left. -/
def sout1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 x1 : Vec F S128x128 .f32) (x2 : Vec F S128 .f32) (x3 x4 x5 : Vec F S128x128 .f32) (x6 : Vec F S128 .f32) (xs0 : Vec F S128x128 .f32) : Vec F S128x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 x5 x6 xs0).1)

/-- At j = 7 the one store into the accumulator covers it, and the one store into the output's buffer covers that. -/
theorem scover1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 x1 : Vec F S128x128 .f32) (x2 : Vec F S128 .f32) (x3 x4 x5 : Vec F S128x128 .f32) (x6 : Vec F S128 .f32) (xs0 : Vec F S128x128 .f32) (y : S128x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).2.1 S128x128.size (by sl_kernel_rfl) y
theorem cover1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 x1 : Vec F S128x128 .f32) (x2 : Vec F S128 .f32) (x3 x4 x5 : Vec F S128x128 .f32) (x6 : Vec F S128 .f32) (xs0 : Vec F S128x128 .f32) (y : S128x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 x6 xs0).1 S128x128.size (by sl_kernel_rfl) y
/-- What the accumulator holds after a point with j = 7. -/
def sout1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 x1 : Vec F S128x128 .f32) (x2 : Vec F S128 .f32) (x3 x4 x5 : Vec F S128x128 .f32) (x6 : Vec F S128 .f32) (xs0 : Vec F S128x128 .f32) : Vec F S128x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 x5 x6 xs0).2.1)
/-- What the output's buffer holds after a point with j = 7. -/
def out1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 x1 : Vec F S128x128 .f32) (x2 : Vec F S128 .f32) (x3 x4 x5 : Vec F S128x128 .f32) (x6 : Vec F S128 .f32) (xs0 : Vec F S128x128 .f32) : Vec F S128x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 x6 xs0).1)

/-! ## The same at a grid point, on the point's memrefs and blocks -/

def accA (c : Dev nD) (t : Fin cfg1.N) (h0 : t.val % 8 = 0) (h1 : ¬t.val % 8 = 7) : Vec F S128x128 .f32 :=
  sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)
def accB (c : Dev nD) (t : Fin cfg1.N) (h0 : ¬t.val % 8 = 0) (h1 : ¬t.val % 8 = 7) (prev : Vec F S128x128 .f32) : Vec F S128x128 .f32 :=
  sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) prev
def accC (c : Dev nD) (t : Fin cfg1.N) (h0 : ¬t.val % 8 = 0) (h1 : t.val % 8 = 7) (prev : Vec F S128x128 .f32) : Vec F S128x128 .f32 :=
  sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) prev
def outC (c : Dev nD) (t : Fin cfg1.N) (h0 : ¬t.val % 8 = 0) (h1 : t.val % 8 = 7) (prev : Vec F S128x128 .f32) : Vec F S128x128 .f32 :=
  out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) prev

/-- THE ACCUMULATION. After the body at position n: the output's buffer (first component; it matters only at
    j = 7, where the body stores it — elsewhere the window is idle and the component repeats the accumulator) and
    the accumulator (second component), the case chosen by n mod 8, a later point starting from what the point
    before left. -/
def outsAt1 (c : Dev nD) : (n : ℕ) → n < cfg1.N → Vec F S128x128 .f32 × Vec F S128x128 .f32
  | 0, hn => (accA V c ⟨0, hn⟩ (Nat.zero_mod _) (by show ¬ (0 % 8 = 7); decide), accA V c ⟨0, hn⟩ (Nat.zero_mod _) (by show ¬ (0 % 8 = 7); decide))
  | n + 1, hn =>
    if h0 : (n + 1) % 8 = 0 then
      (accA V c ⟨n + 1, hn⟩ h0 (fun h => by have h' : (n + 1) % 8 = 7 := h; omega), accA V c ⟨n + 1, hn⟩ h0 (fun h => by have h' : (n + 1) % 8 = 7 := h; omega))
    else
      if h1 : (n + 1) % 8 = 7 then
        (outC V c ⟨n + 1, hn⟩ h0 h1 (outsAt1 c n (Nat.lt_of_succ_lt hn)).2, accC V c ⟨n + 1, hn⟩ h0 h1 (outsAt1 c n (Nat.lt_of_succ_lt hn)).2)
      else
        (accB V c ⟨n + 1, hn⟩ h0 h1 (outsAt1 c n (Nat.lt_of_succ_lt hn)).2, accB V c ⟨n + 1, hn⟩ h0 h1 (outsAt1 c n (Nat.lt_of_succ_lt hn)).2)

theorem outsAt1_A (c : Dev nD) (t : Fin cfg1.N) (h0 : t.val % 8 = 0) (h1 : ¬t.val % 8 = 7) :
    outsAt1 V c t.val t.isLt = (accA V c t h0 h1, accA V c t h0 h1) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = (accB V c t h0 h1 (outsAt1 V c (t.val - 1) (Nat.lt_of_le_of_lt (Nat.sub_le _ _) t.isLt)).2, accB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (outC V c t h0 h1 (outsAt1 V c (t.val - 1) (Nat.lt_of_le_of_lt (Nat.sub_le _ _) t.isLt)).2, accC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region's invariant before position n: before the first point what the launch hands over (the accumulator
    at anything); afterwards the accumulator at what the point before left, the other scoped buffers at anything,
    the generator register at some state. -/
def PhiS (c : Dev nD) : (n : ℕ) → n ≤ cfg1.N → sProp 𝕄
  | 0, _ => Pipeline.ΦA spec1 c
  | n + 1, hn => iprop(scopedWith c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(scopedWith c (owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(scopedWith c (owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point: the inputs' memrefs hold their blocks; n mod 8 says which case the point is in; the
    invariant hands the body the accumulator at what the point before left (at anything at the very first point)
    and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hN : t.val < 64 := lt_of_lt_of_eq t.isLt (show cfg1.N = 64 from N_1)
  by_cases h0 : t.val % 8 = 0
  · have h1 : ¬t.val % 8 = 7 := by omega
    rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
    rw [outsAt1_A V c t h0 h1]
    unfold accA sout1_A; (try dsimp only)
    by_cases hz : t.val = 0
    · rw [PhiS_castSucc V c t, PhiS_zero V c _ _ hz, PhiA1_eq]
      unfold scopedWith
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc V c t, PhiS_pos V c _ _ hz]
      unfold scopedWith
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      iintro ⟨H0, H1, H2, H3, H4, H5, H6, H7, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 8 = 7
    · rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold outC accC out1_C sout1_C; (try dsimp only)
      rw [PhiS_castSucc V c t, PhiS_pos V c _ _ hz]
      unfold scopedWith
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_C c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_C c _ _ _ _ _ _ _ _ _ _ _ _ _ _ _ _ _ _ _ _ _ _ _ _ _ _ _ _ _)
    · rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold accB sout1_B; (try dsimp only)
      rw [PhiS_castSucc V c t, PhiS_pos V c _ _ hz]
      unfold scopedWith
      iintro ⟨⟨⟨Ha, Hb, Hc, Hd, He, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives that back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  unfold scopedWith
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

end Cert.KernelIdeal.Conv

end
-- ==== Proof.KernelIdealWhole.lean ====
/-
  The whole program as a run: four host operations (the two halves of the gate's weights cut out and
  transposed), the first kernel region (the two products), the second (the gated convolution), for any float
  instance. The buffer contents at each boundary are a fold from the launch memory: after the host operations,
  after the first region (its arrays at what its write-backs leave, every other buffer as before), after the
  second. Every weakly fair execution terminates and ends with every unscoped buffer at the last of these;
  each argument array, read back through the fold, holds its launch contents.
-/
import proofs.«170047_j79989470921007_1_alg».proof.Proof.Gen.KernelIdeal.Launch
import proofs.«170047_j79989470921007_1_alg».proof.Proof.Gen.KernelIdeal.Skeleton
import proofs.«170047_j79989470921007_1_alg».proof.Proof.Gen.KernelIdeal.Points
import proofs.«170047_j79989470921007_1_alg».proof.Proof.KernelIdealProj
import proofs.«170047_j79989470921007_1_alg».proof.Proof.KernelIdealConv
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the four host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit (the second region's entry: no host operation stands between them). -/
def W2 (c : Dev nD) : Valuation τ sig (Elt F) :=
  Pipeline.withArrays spec0 c (W1 m ρ c) fun w => (Proj.dat0 (V1 m ρ) c).arrAt w cfg0.N
theorem W2_arr (c : Dev nD) (w : Fin cfg0.W) :
    W2 m ρ c (Proc.devRef .tc (Pipeline.arrRef spec0 w)) = (Proj.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: the end of the program. -/
def W3 (c : Dev nD) : Valuation τ sig (Elt F) :=
  Pipeline.withArrays spec1 c (W2 m ρ c) fun w => (Conv.dat1 (V2 m ρ) c).arrAt w cfg1.N
theorem W3_arr (c : Dev nD) (w : Fin cfg1.W) :
    W3 m ρ c (Proc.devRef .tc (Pipeline.arrRef spec1 w)) = (Conv.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Conv.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: no host operation and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 4).trans (((Conv.dat1 (V2 m ρ) c).arrAt_in 4 rfl _).trans (Conv.A_eq1 (V2 m ρ) c 4))
    _ = W1 m ρ c (Proc.devRef .tc main_arg0) := (W2_arr m ρ c 0).trans (((Proj.dat0 (V1 m ρ) c).arrAt_in 0 rfl _).trans (Proj.A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 3).trans (((Conv.dat1 (V2 m ρ) c).arrAt_in 3 rfl _).trans (Conv.A_eq1 (V2 m ρ) c 3))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 5).trans (((Conv.dat1 (V2 m ρ) c).arrAt_in 5 rfl _).trans (Conv.A_eq1 (V2 m ρ) c 5))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 6).trans (((Conv.dat1 (V2 m ρ) c).arrAt_in 6 rfl _).trans (Conv.A_eq1 (V2 m ρ) c 6))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (W3_arr m ρ c 2).trans (((Conv.dat1 (V2 m ρ) c).arrAt_in 2 rfl _).trans (Conv.A_eq1 (V2 m ρ) c 2))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and what rides beside the buffers -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Proj.dat0 (V1 m ρ) c
  | ⟨1, _⟩ => fun c => Conv.dat1 (V2 m ρ) c
abbrev 𝒱₀ : Variants := Variants.none
abbrev L : GSem nD τ sig → Finset Unit := fun _ => ∅
abbrev lv : GSem nD τ sig → Unit → ℕ := fun _ _ => 0
/-- The generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_allocates_nothing : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W2, left at W3. Its invariant takes the scoped rest
    and the generator register in, carries the accumulator from point to point, and gives both back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Conv.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Conv.hin1 (V2 m ρ) c)
    unfold Pipeline.ΦA
    iintro ⟨Hp, -, Hr⟩
    isplitl [Hr]; · iexact Hr
    iexact Hp
  hout c := by
    rw [Pipeline.ownSems0_none]
    refine BIBase.Entails.trans (Conv.hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_allocates_nothing (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters, every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

/-- The result array ends at what the second region's write-backs leave in it. -/
theorem result_at (r : PUnit × MemSt nD τ sig (Elt F)) (h : ∀ c : Dev nD, ∀ b ∈ Pipeline.ucRefs τ sig, r.2.mem (((c : Thread nD τ)).1, b) = W3 m ρ c b) (c : Dev nD) :
    r.2.mem ((c.tc : Thread nD τ).loc main_v5) = (Conv.dat1 (V2 m ρ) c).arrAt 7 cfg1.N :=
  (h c _ (mem_uc main_v5 (by decide))).trans (W3_arr m ρ c 7)

end Cert.KernelIdeal.Whole

end
-- ==== Proof.PayloadValue.lean ====
/-
  The arithmetic of the two kernel bodies, read one entry at a time over the extended reals, where every
  operation is exact and a change of float format is the identity.

  First body (the two projections): each stored block is a plain matrix product,
      (r, g) ↦ ∑ k, x[r, k] * w[k, g].
  Second body (the aggregation over neighbours with logistic weights), with a the rows' projection, b the neighbours' projection, c the lane bias,
  m the adjacency block, y the neighbours' features and acc the running block:
      start      (p, q) ↦ 0
      one step   (p, q) ↦ acc[p, q] + ∑ jj, ((∑ f, logistic ((a[p, f] + b[jj, f]) + c[f])) * m[p, jj]) * y[jj, q]
      last step  (p, o) ↦ (∑ g, acc[p, g] * W[g, o]) + bias[o].
  The gating sum ∑ f logistic (…) is formed on a [128, 128, 128] array: a is repeated along the middle axis, b along the
  leading axis and c along both, the three are added, the logistic is taken entrywise and the last axis is summed.
  Each layout step below says which entry of its operand an entry of its result reads; the matrix products are the
  sums over the one contracted axis, re-indexed by that axis's coordinate. Nothing here needs distributivity: the
  sums and products stay in the order the bodies form them.
-/
import proofs.«170047_j79989470921007_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadValue

open Cert.KernelIdeal Cert.KernelIdeal.Gen Idealize.ShloMosaic Idealize.ShloMosaic.ValueIdx

/-! ## The matrix products at an entry -/

/-- In the [1024, 128] × [128, 128] product, the left operand's row coordinate at output index i is i's row. -/
theorem dotA_lhs_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- … and its column coordinate is the contraction coordinate. -/
theorem dotA_lhs_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- The right operand's row coordinate is the contraction coordinate … -/
theorem dotA_rhs_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- … and its column coordinate at output index i is i's column. -/
theorem dotA_rhs_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A [1024, 128] matrix times a [128, 128] matrix, accumulated into the zero matrix, at (r, g): the sum over the shared
    axis of the row's entries times the column's (the zero word is the number 0, and 0 + s = s). -/
theorem matmul_1024_apply (a : FVec Ideal S1024x128 .bf16) (b : FVec Ideal S128x128 .bf16) (r : Fin 1024) (g : Fin 128) :
    matmul dot_S1024x128_S128x128_S1024x128_1_0_0_1_n_n none a b (constant (F := Ideal) S1024x128 .f32 0x00000000#32) (ix2 r g)
      = ∑ k : Fin 128, a (ix2 r k) * b (ix2 k g) := by
  refine (Ideal.matmul_constant_zero_apply dot_S1024x128_S128x128_S1024x128_1_0_0_1_n_n none a b (ix2 r g)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r g) ((contrEquiv1 dot_S1024x128_S128x128_S1024x128_1_0_0_1_n_n 128 rfl rfl).symm k) = ix2 r k :=
    funext fun ax => Fin.ext (by
      match ax with
      | ⟨0, _⟩ => exact dotA_lhs_0 _ _
      | ⟨1, _⟩ => exact (dotA_lhs_1 _ _).trans hk)
  have er : dot_S1024x128_S128x128_S1024x128_1_0_0_1_n_n.rhsIdx (ix2 r g) ((contrEquiv1 dot_S1024x128_S128x128_S1024x128_1_0_0_1_n_n 128 rfl rfl).symm k) = ix2 k g :=
    funext fun ax => Fin.ext (by
      match ax with
      | ⟨0, _⟩ => exact (dotA_rhs_0 _ _).trans hk
      | ⟨1, _⟩ => exact dotA_rhs_1 _ _)
  rw [el, er]

/-- In the [128, 128] × [128, 128] product, the left operand's row coordinate at output index i is i's row. -/
theorem dotB_lhs_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
/-- … and its column coordinate is the contraction coordinate. -/
theorem dotB_lhs_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
/-- The right operand's row coordinate is the contraction coordinate … -/
theorem dotB_rhs_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
/-- … and its column coordinate at output index i is i's column. -/
theorem dotB_rhs_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The same for two [128, 128] matrices. -/
theorem matmul_128_apply (a : FVec Ideal S128x128 .bf16) (b : FVec Ideal S128x128 .bf16) (r : Fin 128) (g : Fin 128) :
    matmul dot_S128x128_S128x128_S128x128_1_0_0_1_n_n none a b (constant (F := Ideal) S128x128 .f32 0x00000000#32) (ix2 r g)
      = ∑ k : Fin 128, a (ix2 r k) * b (ix2 k g) := by
  refine (Ideal.matmul_constant_zero_apply dot_S128x128_S128x128_S128x128_1_0_0_1_n_n none a b (ix2 r g)).trans ?_
  rw [← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 r g) ((contrEquiv1 dot_S128x128_S128x128_S128x128_1_0_0_1_n_n 128 rfl rfl).symm k) = ix2 r k :=
    funext fun ax => Fin.ext (by
      match ax with
      | ⟨0, _⟩ => exact dotB_lhs_0 _ _
      | ⟨1, _⟩ => exact (dotB_lhs_1 _ _).trans hk)
  have er : dot_S128x128_S128x128_S128x128_1_0_0_1_n_n.rhsIdx (ix2 r g) ((contrEquiv1 dot_S128x128_S128x128_S128x128_1_0_0_1_n_n 128 rfl rfl).symm k) = ix2 k g :=
    funext fun ax => Fin.ext (by
      match ax with
      | ⟨0, _⟩ => exact (dotB_rhs_0 _ _).trans hk
      | ⟨1, _⟩ => exact dotB_rhs_1 _ _)
  rw [el, er]

/-! ## The first body: two projections -/

/-- The first projection at (r, g): ∑ k, x[r, k] * w[k, g] (the casts to the same shape and the narrowings are identities). -/
theorem k0_pay2_apply (v0 : Vec Ideal S1024x128 .f32) (v2 : Vec Ideal S128x128 .f32) (r : Fin 1024) (g : Fin 128) :
    k0_pay2 (F := Ideal) v0 v2 (ix2 r g) = ∑ k : Fin 128, v0 (ix2 r k) * v2 (ix2 k g) := by
  unfold k0_pay2 k0_pay1
  refine (matmul_1024_apply _ _ r g).trans (Finset.sum_congr rfl fun k _ => ?_)
  show v0 (ix2 r k) * shapeCast S128x128 v2 shapeCasts_S128x128_S128x128 (ix2 k g) = _
  rw [shapeCast_self]

/-- The second projection at (r, g), the same sum against the other weight block. -/
theorem k0_pay3_apply (v0 : Vec Ideal S1024x128 .f32) (v5 : Vec Ideal S128x128 .f32) (r : Fin 1024) (g : Fin 128) :
    k0_pay3 (F := Ideal) v0 v5 (ix2 r g) = ∑ k : Fin 128, v0 (ix2 r k) * v5 (ix2 k g) := by
  unfold k0_pay3 k0_pay1
  refine (matmul_1024_apply _ _ r g).trans (Finset.sum_congr rfl fun k _ => ?_)
  show v0 (ix2 r k) * shapeCast S128x128 v5 shapeCasts_S128x128_S128x128 (ix2 k g) = _
  rw [shapeCast_self]

/-! ## The second body: start, one step, last step -/

/-- The running block starts at zero: the splat of the zero word is the number 0 everywhere. -/
theorem k1_pay1_apply (p q : Fin 128) : k1_pay1 (F := Ideal) (ix2 p q) = 0 := by
  unfold k1_pay1
  show shapeCast S128x128 (broadcast S128x128 (Scalar.ofBits (F := Ideal) .f32 0x00000000#32)) shapeCasts_S128x128_S128x128 (ix2 p q) = 0
  rw [shapeCast_self]
  exact Ideal.ofBits_zero_f32

/-- The last step at (p, o): the running block times the output weights, plus the bias row repeated over the rows
    (a [128] row viewed as [1, 128] and repeated reads its entry o). -/
theorem k1_pay3_apply (v32 v34 : Vec Ideal S128x128 .f32) (v37 : Vec Ideal S128 .f32) (p o : Fin 128) :
    k1_pay3 (F := Ideal) v32 v34 v37 (ix2 p o) = (∑ g : Fin 128, v32 (ix2 p g) * v34 (ix2 g o)) + v37 (ix1 o) := by
  unfold k1_pay3
  refine (addf_apply _ _ (ix2 p o)).trans ?_
  refine congrArg₂ (· + ·) (matmul_128_apply _ _ p o) ?_
  refine (broadcastTo_1b_ab_apply _ broadcasts_S1x128_S128x128 p o).trans ?_
  exact shapeCast_a_1a_apply v37 shapeCasts_S128_S1x128 0 o

/-! ## The gating sum's layout steps at an entry -/

/-- A [128, 1, 128] array repeated along its unit axis: (p, jj, f) reads (p, 0, f). -/
theorem broadcast_mid_apply {α : Type} (x : S128x1x128.Idx → α) (h : S128x1x128.Broadcasts S128x128x128) (p jj f : Fin 128) :
    broadcastTo S128x128x128 x h (ix3 p jj f) = x (ix3 p (0 : Fin 1) f) :=
  broadcastTo_apply x h (ix3 p jj f) (ix3 p (0 : Fin 1) f) fun ax => by
    match ax with
    | ⟨0, _⟩ => rfl
    | ⟨1, _⟩ => rfl
    | ⟨2, _⟩ => rfl

/-- A [1, 128, 128] array repeated along its leading unit axis: (p, jj, f) reads (0, jj, f). -/
theorem broadcast_lead_apply {α : Type} (x : S1x128x128.Idx → α) (h : S1x128x128.Broadcasts S128x128x128) (p jj f : Fin 128) :
    broadcastTo S128x128x128 x h (ix3 p jj f) = x (ix3 (0 : Fin 1) jj f) :=
  broadcastTo_apply x h (ix3 p jj f) (ix3 (0 : Fin 1) jj f) fun ax => by
    match ax with
    | ⟨0, _⟩ => rfl
    | ⟨1, _⟩ => rfl
    | ⟨2, _⟩ => rfl

/-- A [1, 1, 128] array repeated along both unit axes: (p, jj, f) reads (0, 0, f). -/
theorem broadcast_lane_apply {α : Type} (x : S1x1x128.Idx → α) (h : S1x1x128.Broadcasts S128x128x128) (p jj f : Fin 128) :
    broadcastTo S128x128x128 x h (ix3 p jj f) = x (ix3 (0 : Fin 1) (0 : Fin 1) f) :=
  broadcastTo_apply x h (ix3 p jj f) (ix3 (0 : Fin 1) (0 : Fin 1) f) fun ax => by
    match ax with
    | ⟨0, _⟩ => rfl
    | ⟨1, _⟩ => rfl
    | ⟨2, _⟩ => rfl

/-- A [128, 128] array viewed as [128, 1, 128]: (p, u, f) reads (p, f). -/
theorem cast_mid_apply {α : Type} (x : S128x128.Idx → α) (h : S128x128.ShapeCasts S128x1x128) (p : Fin 128) (u : Fin 1) (f : Fin 128) :
    shapeCast S128x1x128 x h (ix3 p u f) = x (ix2 p f) :=
  shapeCast_apply x h _ _ (by
    have hu : u.val = 0 := by omega
    rw [Shape.rowMajor_val_three, Shape.rowMajor_val_two]
    show p.val * 128 + f.val = (p.val * 1 + u.val) * 128 + f.val
    rw [hu]; omega)

/-- A [128] array viewed as [1, 1, 128]: (u, u', f) reads f. -/
theorem cast_lane_apply {α : Type} (x : S128.Idx → α) (h : S128.ShapeCasts S1x1x128) (u u' : Fin 1) (f : Fin 128) :
    shapeCast S1x1x128 x h (ix3 u u' f) = x (ix1 f) :=
  shapeCast_apply x h _ _ (by
    have hu : u.val = 0 := by omega
    have hu' : u'.val = 0 := by omega
    rw [Shape.rowMajor_val_three, Shape.rowMajor_val_one]
    show f.val = (u.val * 1 + u'.val) * 128 + f.val
    rw [hu, hu']; omega)

/-- The sum over the last axis of a [128, 128, 128] array, started from zero, at (p, jj): the sum over f of the
    entries (p, jj, f). -/
theorem lane_sum_apply (src : FVec Ideal S128x128x128 .f32) (h : S128x128x128.Reduces [2] S128x128)
    (hφ : FKind.Formats .f32) (hacc : (0x00000000#32 : BitVec 32) = FKind.add.neutral .f32 hφ) (p jj : Fin 128) :
    multiReduction .add [2] S128x128 src 0x00000000#32 h hφ hacc (ix2 p jj) = ∑ f : Fin 128, src (ix3 p jj f) := by
  refine (Ideal.multiReduction_add_single src _ h hφ hacc (ix2 p jj)).trans ?_
  refine Finset.sum_congr rfl fun f _ => congrArg src ?_
  funext a
  match a with
  | ⟨0, _⟩ => rfl
  | ⟨1, _⟩ => rfl
  | ⟨2, _⟩ => rfl

/-! ## One step of the aggregation -/

/-- One step at (p, q): the running entry plus, over the neighbours jj, the gating sum of (p, jj) — the sum over the lanes f of
    logistic ((a[p, f] + b[jj, f]) + c[f]) — times the adjacency entry m[p, jj], times the neighbour's feature y[jj, q].
    From the outside in: an identity cast, the entrywise sum, the matrix product at an entry, the entrywise product
    with the adjacency, the lane sum, the entrywise logistic, and the three repeated operands each read at (p, jj, f). -/
theorem k1_pay2_apply (v3 v5 : Vec Ideal S128x128 .f32) (v7 : Vec Ideal S128 .f32) (v18 v21 v23 : Vec Ideal S128x128 .f32) (p q : Fin 128) :
    k1_pay2 (F := Ideal) v3 v5 v7 v18 v21 v23 (ix2 p q)
      = v23 (ix2 p q) + ∑ jj : Fin 128, ((∑ f : Fin 128, Ideal.logistic ((v3 (ix2 p f) + v5 (ix2 jj f)) + v7 (ix1 f))) * v18 (ix2 p jj)) * v21 (ix2 jj q) := by
  unfold k1_pay2
  refine (congrFun (shapeCast_self _ shapeCasts_S128x128_S128x128) (ix2 p q)).trans ?_
  refine (addf_apply _ _ (ix2 p q)).trans ?_
  refine congrArg (v23 (ix2 p q) + ·) ?_
  refine (matmul_128_apply _ _ p q).trans (Finset.sum_congr rfl fun jj _ => ?_)
  refine congrArg (· * v21 (ix2 jj q)) ?_
  refine congrArg (· * v18 (ix2 p jj)) ?_
  refine (lane_sum_apply _ _ _ _ p jj).trans (Finset.sum_congr rfl fun f _ => ?_)
  refine congrArg Ideal.logistic ?_
  refine congrArg₂ (· + ·) (congrArg₂ (· + ·) ?_ ?_) ?_
  · refine (broadcast_mid_apply _ _ p jj f).trans ?_
    refine (cast_mid_apply _ _ p 0 f).trans ?_
    exact congrFun (shapeCast_self v3 _) (ix2 p f)
  · refine (broadcast_lead_apply _ _ p jj f).trans ?_
    refine (shapeCast_ab_1ab_apply _ _ 0 jj f).trans ?_
    exact congrFun (shapeCast_self v5 _) (ix2 jj f)
  · refine (broadcast_lane_apply _ _ p jj f).trans ?_
    exact cast_lane_apply v7 _ 0 0 f

end Cert.KernelIdeal.PayloadValue

end
-- ==== Proof.LibNonnegFactor.lean ====
/-
  General facts of the extended reals at the exact reading, for kernels that weight terms by a logistic gate.

  * `sum_mul_of_nonneg`: a common factor comes out of a finite sum of NONNEGATIVE extended reals,
    (sum_k s_k) * c = sum_k (s_k * c), for ANY extended real c (multiplication does not distribute over addition on
    the extended reals in general; it does over nonnegative summands).
  * `zero_add_sum_mul`: the same over a whole finite type with the sum started from 0, as a host reduction
    starts it: 0 + sum_k (s_k * c) = (sum_k s_k) * c.
  * `logistic_nonneg`: the logistic function 1 / (1 + exp (-t)) is nonnegative at every extended real
    (0 at -inf, 1 at +inf, a positive real in between).
  * `ofBits_one_f32`: the f32 word 0x3F800000 reads 1.
-/
import Idealize.ShloMosaic.PureOps.Ideal

noncomputable section

open scoped BigOperators

namespace Cert.LibNonnegFactor

open Idealize.ShloMosaic

/-- A common factor comes out of a sum of nonnegative terms: (sum_k s_k) * c = sum_k (s_k * c) when
    every s_k is nonnegative, for any extended real c. By induction on the index set; the partial sums
    are nonnegative, which is what right distributivity on the extended reals asks for. -/
theorem sum_mul_of_nonneg {ι : Type*} (s : Finset ι) (f : ι → EReal) (c : EReal) (hf : ∀ k ∈ s, 0 ≤ f k) :
    (∑ k ∈ s, f k) * c = ∑ k ∈ s, f k * c := by
  classical
  induction s using Finset.induction_on with
  | empty => simp
  | insert a s ha ih =>
    have hs : ∀ k ∈ s, 0 ≤ f k := fun k hk => hf k (Finset.mem_insert_of_mem hk)
    rw [Finset.sum_insert ha, Finset.sum_insert ha,
      EReal.right_distrib_of_nonneg (hf a (Finset.mem_insert_self a s)) (Finset.sum_nonneg hs), ih hs]

/-- The same over a whole finite type, with the sum started from 0. -/
theorem zero_add_sum_mul {ι : Type*} [Fintype ι] (f : ι → EReal) (c : EReal) (hf : ∀ k, 0 ≤ f k) :
    0 + ∑ k, f k * c = (∑ k, f k) * c := by
  rw [zero_add, sum_mul_of_nonneg Finset.univ f c fun k _ => hf k]

/-- The logistic function is nonnegative on every extended real. -/
theorem logistic_nonneg (t : EReal) : 0 ≤ Ideal.logistic t := by
  induction t using EReal.rec with
  | bot => simp
  | top => simp
  | coe r =>
    rw [Ideal.logistic_coe]
    exact EReal.coe_nonneg.mpr (inv_nonneg.mpr (by positivity))

/-- The f32 word 0x3F800000 denotes 1. -/
theorem ofBits_one_f32 : Ideal.ofBits .f32 0x3F800000#32 = 1 := by
  simp [Ideal.ofBits, Ideal.ieee, -EReal.coe_mul]; norm_num

end Cert.LibNonnegFactor

end
-- ==== Proof.GatedConv.lean ====
/-
  The function both programs compute at the exact reading, index by index, for 1024 nodes with 128 features.

  With x the node features [1024,128], adj the adjacency weights [1024,1024], w1 the gate's weights [128,256],
  b1 its bias [128], W [128,128] and bias [128] the output layer:

    a[j,g]       = sum over k of x[j,k] * w1[g,k]              (sender half of the gate's linear map)
    b[i,g]       = sum over k of x[i,k] * w1[g,128+k]          (receiver half)
    S[i,j]       = sum over f of sigma((b[i,f] + a[j,f]) + b1[f])   (sigma the logistic function)
    support[i,g] = sum over j of (S[i,j] * adj[i,j]) * x[j,g]
    out[i,o]     = (sum over g of support[i,g] * W[g,o]) + bias[o]

  All sums and products are those of the extended reals; sigma takes values in [0,1], so S is a
  nonnegative real whatever the inputs are.
-/
import Idealize.ShloMosaic.PureOps.Ideal
import Idealize.ShloMosaic.Lib.ValueIdx
import proofs.«170047_j79989470921007_1_alg».proof.Proof.LibNonnegFactor

noncomputable section

open scoped BigOperators

namespace Cert.GatedConv

open Idealize.ShloMosaic Idealize.ShloMosaic.ValueIdx

/-- Node features, and the result: [1024,128]. -/
abbrev SX : Shape := ⟨2, ![1024, 128]⟩
/-- Adjacency weights: [1024,1024]. -/
abbrev SA : Shape := ⟨2, ![1024, 1024]⟩
/-- The output layer's weights: [128,128]. -/
abbrev SW : Shape := ⟨2, ![128, 128]⟩
/-- The gate's weights: [128,256], sender half in columns 0..127, receiver half in columns 128..255. -/
abbrev SW1 : Shape := ⟨2, ![128, 256]⟩
/-- A bias vector: [128]. -/
abbrev SV : Shape := ⟨1, ![128]⟩

variable (x : SX.Idx → EReal) (adj : SA.Idx → EReal) (W : SW.Idx → EReal) (bias : SV.Idx → EReal)
  (w1 : SW1.Idx → EReal) (b1 : SV.Idx → EReal)

/-- Column k of the gate's weights, sender half. -/
abbrev colA (k : Fin 128) : Fin 256 := ⟨k.val, by omega⟩
/-- Column 128 + k of the gate's weights, receiver half. -/
abbrev colB (k : Fin 128) : Fin 256 := ⟨128 + k.val, by omega⟩

/-- a[j,g]: node j's features against row g of the sender half. -/
def projA (j : Fin 1024) (g : Fin 128) : EReal := ∑ k : Fin 128, x (ix2 j k) * w1 (ix2 g (colA k))
/-- b[i,g]: node i's features against row g of the receiver half. -/
def projB (i : Fin 1024) (g : Fin 128) : EReal := ∑ k : Fin 128, x (ix2 i k) * w1 (ix2 g (colB k))
/-- S[i,j]: the gate of the pair (i,j), summed over its 128 features. -/
def gateSum (i j : Fin 1024) : EReal :=
  ∑ f : Fin 128, Ideal.logistic ((projB x w1 i f + projA x w1 j f) + b1 (ix1 f))
/-- support[i,g]: the gated, adjacency-weighted sum of the neighbours' features. -/
def support (i : Fin 1024) (g : Fin 128) : EReal :=
  ∑ j : Fin 1024, (gateSum x w1 b1 i j * adj (ix2 i j)) * x (ix2 j g)
/-- out[i,o] by coordinates. -/
def outAt (i : Fin 1024) (o : Fin 128) : EReal :=
  (∑ g : Fin 128, support x adj w1 b1 i g * W (ix2 g o)) + bias (ix1 o)
/-- The result array. -/
def out : SX.Idx → EReal := fun idx => outAt x adj W bias w1 b1 (idx 0) (idx 1)

theorem out_ix2 (i : Fin 1024) (o : Fin 128) : out x adj W bias w1 b1 (ix2 i o) = outAt x adj W bias w1 b1 i o := rfl

/-- Hence every gate sum is nonnegative. -/
theorem gateSum_nonneg (i j : Fin 1024) : 0 ≤ gateSum x w1 b1 i j :=
  Finset.sum_nonneg fun _ _ => Cert.LibNonnegFactor.logistic_nonneg _

end Cert.GatedConv

end
-- ==== Proof.KernelIdealProducts.lean ====
/-
  What the first kernel region leaves, at the exact reading. The host operations before it cut the two
  [128,128] halves out of the gate's weights w1 [128,256] and transpose them, so that entry (k, g) of the first
  is w1[g, k] and of the second w1[g, 128 + k]. The region's one grid point covers both output arrays, so they end
  holding the two products, entry (j, g): a[j,g] = sum over k of x[j,k] * w1[g,k] and
  b[j,g] = sum over k of x[j,k] * w1[g,128+k], the specification's projA and projB.
-/
import proofs.«170047_j79989470921007_1_alg».proof.Proof.KernelIdealWhole
import proofs.«170047_j79989470921007_1_alg».proof.Proof.PayloadValue
import proofs.«170047_j79989470921007_1_alg».proof.Proof.GatedConv
import Idealize.ShloMosaic.Lib.Pipeline.Value
import Idealize.ShloMosaic.Lib.StableHlo.Run

set_option maxRecDepth 16384

noncomputable section

open scoped BigOperators

namespace Cert.KernelIdeal.Result

open Cert.KernelIdeal Cert.KernelIdeal.Gen Cert.KernelIdeal.Whole
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-- The argument arrays of core c, as functions of an index. -/
abbrev xOf (c : Dev nD) : S1024x128.Idx → EReal := m ((c : Thread nD τ).loc main_arg0)
abbrev adjOf (c : Dev nD) : S1024x1024.Idx → EReal := m ((c : Thread nD τ).loc main_arg1)
abbrev wOf (c : Dev nD) : S128x128.Idx → EReal := m ((c : Thread nD τ).loc main_arg3)
abbrev biasOf (c : Dev nD) : S128.Idx → EReal := m ((c : Thread nD τ).loc main_arg4)
abbrev w1Of (c : Dev nD) : S128x256.Idx → EReal := m ((c : Thread nD τ).loc main_arg5)
abbrev b1Of (c : Dev nD) : S128.Idx → EReal := m ((c : Thread nD τ).loc main_arg6)

/-! ## What the first region finds -/

/-- No host operation writes an argument. -/
theorem keeps (c : Dev nD) (b : Ref sig .tc) (hb : b ∉ ([main_v0, main_v1, main_v2, main_v3] : List (Ref sig .tc))) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.unary_writes, Finset.mem_singleton]
    refine ⟨?_, ?_, ?_, ?_⟩ <;> exact StableHlo.devRef_ne_of_ne (fun e => hb (by rw [e]; simp))))

theorem found_x (c : Dev nD) : V1 m ρ c main_arg0 = xOf m c := keeps m ρ c main_arg0 (by decide)

/-- The sender half, transposed. -/
theorem found_wa (c : Dev nD) : (V1 m ρ c main_v1 : S128x128.Idx → EReal)
    = transpose S128x128 [1, 0] (extractStridedSlice S128x128 ![0, 0] (w1Of m c) slices_S128x256_S128x128_0_0) transposes_S128x128_S128x128_1_0 := by
  dsimp only [V1, W1, hostOps0]; after_results
/-- The receiver half, transposed. -/
theorem found_wb (c : Dev nD) : (V1 m ρ c main_v3 : S128x128.Idx → EReal)
    = transpose S128x128 [1, 0] (extractStridedSlice S128x128 ![0, 128] (w1Of m c) slices_S128x256_S128x128_0_128) transposes_S128x128_S128x128_1_0 := by
  dsimp only [V1, W1, hostOps0]; after_results

theorem wa_apply (c : Dev nD) (k g : Fin 128) : V1 m ρ c main_v1 (ix2 k g) = w1Of m c (ix2 g (GatedConv.colA k)) := by
  rw [found_wa]
  exact (transpose_apply [1, 0] _ transposes_S128x128_S128x128_1_0 (ix2 k g) (ix2 g k) (fun b => match b with
      | ⟨0, _⟩ => rfl
      | ⟨1, _⟩ => rfl)).trans
    (extractStridedSlice_apply ![0, 0] _ slices_S128x256_S128x128_0_0 (ix2 g k) (ix2 g (GatedConv.colA k)) (fun a => match a with
      | ⟨0, _⟩ => by show g.val = 0 + g.val; omega
      | ⟨1, _⟩ => by show k.val = 0 + k.val; omega))
theorem wb_apply (c : Dev nD) (k g : Fin 128) : V1 m ρ c main_v3 (ix2 k g) = w1Of m c (ix2 g (GatedConv.colB k)) := by
  rw [found_wb]
  exact (transpose_apply [1, 0] _ transposes_S128x128_S128x128_1_0 (ix2 k g) (ix2 g k) (fun b => match b with
      | ⟨0, _⟩ => rfl
      | ⟨1, _⟩ => rfl)).trans
    (extractStridedSlice_apply ![0, 128] _ slices_S128x256_S128x128_0_128 (ix2 g k) (ix2 g (GatedConv.colB k)) (fun a => match a with
      | ⟨0, _⟩ => by show g.val = 0 + g.val; omega
      | ⟨1, _⟩ => by show 128 + k.val = 128 + k.val; omega))

/-! ## What it leaves -/

/-- The two products as whole arrays. -/
def aMat (c : Dev nD) : S1024x128.Idx → EReal := fun idx => GatedConv.projA (xOf m c) (w1Of m c) (idx 0) (idx 1)
def bMat (c : Dev nD) : S1024x128.Idx → EReal := fun idx => GatedConv.projB (xOf m c) (w1Of m c) (idx 0) (idx 1)

theorem zeros2 : (![0, 0] : Fin 2 → Nat) = fun _ => 0 := funext fun a => by fin_cases a <;> rfl

/-- Each window's block at the one point is its whole array: its index is (0, 0). -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem blk0_0 (c : Dev nD) (t : Fin cfg0.N) (r : Fin 1024) (k : Fin 128) : Proj.iblk0 (V1 m ρ) c 0 t (ix2 r k) = xOf m c (ix2 r k) := by
  obtain ⟨e0, e1, -⟩ := idx_facts0 t
  show V1 m ρ c main_arg0 (((cfg0.win 0).blk t).view.emb (ix2 r k)) = _
  rw [found_x]
  refine congrArg (xOf m c) (funext fun a => Fin.ext ?_)
  match a with
  | ⟨0, _⟩ => show win0_0.index t (0 : Fin 2) * 1024 + 1 * r.val = r.val; omega
  | ⟨1, _⟩ => show win0_0.index t (1 : Fin 2) * 128 + 1 * k.val = k.val; omega
theorem blk0_1 (c : Dev nD) (t : Fin cfg0.N) (k g : Fin 128) : Proj.iblk0 (V1 m ρ) c 1 t (ix2 k g) = w1Of m c (ix2 g (GatedConv.colA k)) := by
  obtain ⟨-, -, e0, e1, -⟩ := idx_facts0 t
  show V1 m ρ c main_v1 (((cfg0.win 1).blk t).view.emb (ix2 k g)) = _
  rw [← wa_apply m ρ c k g]
  refine congrArg (V1 m ρ c main_v1) (funext fun a => Fin.ext ?_)
  match a with
  | ⟨0, _⟩ => show win0_1.index t (0 : Fin 2) * 128 + 1 * k.val = k.val; omega
  | ⟨1, _⟩ => show win0_1.index t (1 : Fin 2) * 128 + 1 * g.val = g.val; omega
theorem blk0_2 (c : Dev nD) (t : Fin cfg0.N) (k g : Fin 128) : Proj.iblk0 (V1 m ρ) c 2 t (ix2 k g) = w1Of m c (ix2 g (GatedConv.colB k)) := by
  obtain ⟨-, -, -, -, e0, e1, -⟩ := idx_facts0 t
  show V1 m ρ c main_v3 (((cfg0.win 2).blk t).view.emb (ix2 k g)) = _
  rw [← wb_apply m ρ c k g]
  refine congrArg (V1 m ρ c main_v3) (funext fun a => Fin.ext ?_)
  match a with
  | ⟨0, _⟩ => show win0_2.index t (0 : Fin 2) * 128 + 1 * k.val = k.val; omega
  | ⟨1, _⟩ => show win0_2.index t (1 : Fin 2) * 128 + 1 * g.val = g.val; omega

/-- What the point writes back into the first product's array is that array's block of aMat. -/
theorem flushed0_3 (c : Dev nD) (t : Fin cfg0.N) :
    (Proj.dat0 (V1 m ρ) c).flushed 3 t = ((cfg0.win 3).blk t).view.read (Elt Ideal) (aMat m c) := by
  show (cfg0.win 3).cut (grid0.coords t) ((Proj.dat0 (V1 m ρ) c).after 3 t) = _
  rw [Proj.after0_3]
  unfold Proj.out0_3
  rw [View.canon_unit_zero zeros2]
  simp only [View.ld_unit_zero (S := S1024x128) zeros2, View.ld_unit_zero (S := S128x128) zeros2]
  obtain ⟨-, -, -, -, -, -, e0, e1, -⟩ := idx_facts0 t
  funext j
  obtain ⟨r, g, rfl⟩ : ∃ (r : Fin 1024) (g : Fin 128), j = ix2 r g := ⟨j 0, j 1, eq_ix2 j⟩
  refine (PayloadValue.k0_pay2_apply _ _ r g).trans ?_
  have hi : ((cfg0.win 3).blk t).view.emb (ix2 r g) = ix2 r g := by
    funext a; apply Fin.ext
    match a with
    | ⟨0, _⟩ => show win0_3.index t (0 : Fin 2) * 1024 + 1 * r.val = r.val; omega
    | ⟨1, _⟩ => show win0_3.index t (1 : Fin 2) * 128 + 1 * g.val = g.val; omega
  show _ = aMat m c (((cfg0.win 3).blk t).view.emb (ix2 r g))
  rw [hi]
  show _ = GatedConv.projA (xOf m c) (w1Of m c) r g
  unfold GatedConv.projA
  exact Finset.sum_congr rfl fun k _ => by rw [blk0_0, blk0_1]
theorem flushed0_4 (c : Dev nD) (t : Fin cfg0.N) :
    (Proj.dat0 (V1 m ρ) c).flushed 4 t = ((cfg0.win 4).blk t).view.read (Elt Ideal) (bMat m c) := by
  show (cfg0.win 4).cut (grid0.coords t) ((Proj.dat0 (V1 m ρ) c).after 4 t) = _
  rw [Proj.after0_4]
  unfold Proj.out0_4
  rw [View.canon_unit_zero zeros2]
  simp only [View.ld_unit_zero (S := S1024x128) zeros2, View.ld_unit_zero (S := S128x128) zeros2]
  obtain ⟨-, -, -, -, -, -, -, -, e0, e1⟩ := idx_facts0 t
  funext j
  obtain ⟨r, g, rfl⟩ : ∃ (r : Fin 1024) (g : Fin 128), j = ix2 r g := ⟨j 0, j 1, eq_ix2 j⟩
  refine (PayloadValue.k0_pay3_apply _ _ r g).trans ?_
  have hi : ((cfg0.win 4).blk t).view.emb (ix2 r g) = ix2 r g := by
    funext a; apply Fin.ext
    match a with
    | ⟨0, _⟩ => show win0_4.index t (0 : Fin 2) * 1024 + 1 * r.val = r.val; omega
    | ⟨1, _⟩ => show win0_4.index t (1 : Fin 2) * 128 + 1 * g.val = g.val; omega
  show _ = bMat m c (((cfg0.win 4).blk t).view.emb (ix2 r g))
  rw [hi]
  show _ = GatedConv.projB (xOf m c) (w1Of m c) r g
  unfold GatedConv.projB
  exact Finset.sum_congr rfl fun k _ => by rw [blk0_0, blk0_2]

/-- The one point's block of either output is the whole array. -/
theorem mem_blk0_3 (t : Fin cfg0.N) (i : S1024x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v4_0).slice (win0_3.rect t)).set ↔ _
  rw [View.set_slice_whole, Rect.mem_set_unit]
  exact Iff.rfl
theorem mem_blk0_4 (t : Fin cfg0.N) (i : S1024x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v4_1).slice (win0_4.rect t)).set ↔ _
  rw [View.set_slice_whole, Rect.mem_set_unit]
  exact Iff.rfl

/-- The first product's array after the region. -/
theorem final0_3 (c : Dev nD) : (Proj.dat0 (V1 m ρ) c).arrAt 3 cfg0.N = aMat m c :=
  (Proj.dat0 (V1 m ρ) c).arrAt_eq_of_cover 3 (aMat m c) (fun t _ => flushed0_3 m ρ c t) (fun i => by
    refine ⟨t0_0, flush0_3 t0_0, ?_⟩
    rw [mem_blk0_3]
    obtain ⟨-, -, -, -, -, -, e0, e1, -⟩ := idx_facts0 t0_0
    have h0 : (i 0).val < 1024 := (i 0).isLt
    have h1 : (i 1).val < 128 := (i 1).isLt
    intro a
    match a with
    | ⟨0, _⟩ => show win0_3.index t0_0 (0 : Fin 2) * 1024 ≤ (i 0).val ∧ (i 0).val < win0_3.index t0_0 (0 : Fin 2) * 1024 + 1024; omega
    | ⟨1, _⟩ => show win0_3.index t0_0 (1 : Fin 2) * 128 ≤ (i 1).val ∧ (i 1).val < win0_3.index t0_0 (1 : Fin 2) * 128 + 128; omega)
/-- The second product's array after the region. -/
theorem final0_4 (c : Dev nD) : (Proj.dat0 (V1 m ρ) c).arrAt 4 cfg0.N = bMat m c :=
  (Proj.dat0 (V1 m ρ) c).arrAt_eq_of_cover 4 (bMat m c) (fun t _ => flushed0_4 m ρ c t) (fun i => by
    refine ⟨t0_0, flush0_4 t0_0, ?_⟩
    rw [mem_blk0_4]
    obtain ⟨-, -, -, -, -, -, -, -, e0, e1⟩ := idx_facts0 t0_0
    have h0 : (i 0).val < 1024 := (i 0).isLt
    have h1 : (i 1).val < 128 := (i 1).isLt
    intro a
    match a with
    | ⟨0, _⟩ => show win0_4.index t0_0 (0 : Fin 2) * 1024 ≤ (i 0).val ∧ (i 0).val < win0_4.index t0_0 (0 : Fin 2) * 1024 + 1024; omega
    | ⟨1, _⟩ => show win0_4.index t0_0 (1 : Fin 2) * 128 ≤ (i 1).val ∧ (i 1).val < win0_4.index t0_0 (1 : Fin 2) * 128 + 128; omega)

/-! ## What the second region finds -/

theorem found2_a (c : Dev nD) : V2 m ρ c main_v4_0 = aMat m c := (W2_arr m ρ c 3).trans (final0_3 m ρ c)
theorem found2_b (c : Dev nD) : V2 m ρ c main_v4_1 = bMat m c := (W2_arr m ρ c 4).trans (final0_4 m ρ c)
theorem found2_x (c : Dev nD) : V2 m ρ c main_arg0 = xOf m c :=
  ((W2_arr m ρ c 0).trans (((Proj.dat0 (V1 m ρ) c).arrAt_in 0 rfl _).trans (Proj.A_eq0 (V1 m ρ) c 0))).trans (found_x m ρ c)
theorem found2_adj (c : Dev nD) : V2 m ρ c main_arg1 = adjOf m c :=
  (W2_of_ne m ρ c main_arg1 (by decide)).trans (keeps m ρ c main_arg1 (by decide))
theorem found2_w (c : Dev nD) : V2 m ρ c main_arg3 = wOf m c :=
  (W2_of_ne m ρ c main_arg3 (by decide)).trans (keeps m ρ c main_arg3 (by decide))
theorem found2_bias (c : Dev nD) : V2 m ρ c main_arg4 = biasOf m c :=
  (W2_of_ne m ρ c main_arg4 (by decide)).trans (keeps m ρ c main_arg4 (by decide))
theorem found2_b1 (c : Dev nD) : V2 m ρ c main_arg6 = b1Of m c :=
  (W2_of_ne m ρ c main_arg6 (by decide)).trans (keeps m ρ c main_arg6 (by decide))

end Cert.KernelIdeal.Result

end
-- ==== Proof.KernelIdealPieces.lean ====
/-
  What the second region's body leaves, read back as the body's arithmetic: after a point with j = 0 the
  accumulator holds the point's product added to the cleared accumulator; after a point with j > 0, the point's
  product added to what it held; and at j = 7 the output's buffer holds the accumulator (as just updated) times
  W plus the bias. For any float instance.
-/
import proofs.«170047_j79989470921007_1_alg».proof.Proof.Gen.KernelIdeal.Launch
import proofs.«170047_j79989470921007_1_alg».proof.Proof.Gen.KernelIdeal.Skeleton
import proofs.«170047_j79989470921007_1_alg».proof.Proof.Gen.KernelIdeal.Points
import proofs.«170047_j79989470921007_1_alg».proof.Proof.KernelIdealConv
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros1 : (![0] : Fin 1 → Nat) = fun _ => 0 := funext fun a => by fin_cases a <;> rfl

theorem sout1_A_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : cond1_0 i) (hc1 : ¬cond1_1 i)
    (x0 x1 : Vec F S128x128 .f32) (x2 : Vec F S128 .f32) (x3 x4 x5 : Vec F S128x128 .f32) (x6 : Vec F S128 .f32) :
    sout1_A c i arg2 harg2 arg3 harg3 arg4 harg4 arg5 harg5 arg6 harg6 arg7 harg7 arg8 harg8 arg9 harg9 arg10 harg10 hc0 hc1 x0 x1 x2 x3 x4 x5 x6 = k1_pay2 x1 x0 x2 x3 x4 (k1_pay1 (F := F)) := by
  unfold sout1_A
  rw [View.read_writes_eq_canon _ _ _ (scover1_A c i arg2 harg2 arg3 harg3 arg4 harg4 arg5 harg5 arg6 harg6 arg7 harg7 arg8 harg8 arg9 harg9 arg10 harg10 hc0 hc1 x0 x1 x2 x3 x4 x5 x6)]
  unfold kernelRun1_A
  dsimp only
  sl_unfold_words
  rw [View.canon_cons_unit_zero zeros2]
  simp only [View.readAt_eq_ld, Memref.IsWhole.read_unread, View.ld_unit_zero (S := S128x128) zeros2, View.ld_unit_zero (S := S128) zeros1]
  rw [View.readCov_unit_zero (S := S128x128) arg10.view zeros2]

theorem sout1_B_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : ¬cond1_1 i)
    (x0 x1 : Vec F S128x128 .f32) (x2 : Vec F S128 .f32) (x3 x4 x5 : Vec F S128x128 .f32) (x6 : Vec F S128 .f32) (xs0 : Vec F S128x128 .f32) :
    sout1_B c i arg2 harg2 arg3 harg3 arg4 harg4 arg5 harg5 arg6 harg6 arg7 harg7 arg8 harg8 arg9 harg9 arg10 harg10 hc0 hc1 x0 x1 x2 x3 x4 x5 x6 xs0 = k1_pay2 x1 x0 x2 x3 x4 xs0 := by
  unfold sout1_B
  rw [View.read_writes_eq_canon _ _ _ (scover1_B c i arg2 harg2 arg3 harg3 arg4 harg4 arg5 harg5 arg6 harg6 arg7 harg7 arg8 harg8 arg9 harg9 arg10 harg10 hc0 hc1 x0 x1 x2 x3 x4 x5 x6 xs0)]
  unfold kernelRun1_B
  dsimp only
  sl_unfold_words
  rw [View.canon_unit_zero zeros2]
  simp only [View.readAt_eq_ld, Memref.IsWhole.read_unread, View.ld_unit_zero (S := S128x128) zeros2, View.ld_unit_zero (S := S128) zeros1]

theorem sout1_C_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 x1 : Vec F S128x128 .f32) (x2 : Vec F S128 .f32) (x3 x4 x5 : Vec F S128x128 .f32) (x6 : Vec F S128 .f32) (xs0 : Vec F S128x128 .f32) :
    sout1_C c i arg2 harg2 arg3 harg3 arg4 harg4 arg5 harg5 arg6 harg6 arg7 harg7 arg8 harg8 arg9 harg9 arg10 harg10 hc0 hc1 x0 x1 x2 x3 x4 x5 x6 xs0 = k1_pay2 x1 x0 x2 x3 x4 xs0 := by
  unfold sout1_C
  rw [View.read_writes_eq_canon _ _ _ (scover1_C c i arg2 harg2 arg3 harg3 arg4 harg4 arg5 harg5 arg6 harg6 arg7 harg7 arg8 harg8 arg9 harg9 arg10 harg10 hc0 hc1 x0 x1 x2 x3 x4 x5 x6 xs0)]
  unfold kernelRun1_C
  dsimp only
  sl_unfold_words
  rw [View.canon_unit_zero zeros2]
  simp only [View.readAt_eq_ld, Memref.IsWhole.read_unread, View.ld_unit_zero (S := S128x128) zeros2, View.ld_unit_zero (S := S128) zeros1]

theorem out1_C_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128x128 .f32) (harg10 : arg10.IsWhole) (hc0 : ¬cond1_0 i) (hc1 : cond1_1 i)
    (x0 x1 : Vec F S128x128 .f32) (x2 : Vec F S128 .f32) (x3 x4 x5 : Vec F S128x128 .f32) (x6 : Vec F S128 .f32) (xs0 : Vec F S128x128 .f32) :
    out1_C c i arg2 harg2 arg3 harg3 arg4 harg4 arg5 harg5 arg6 harg6 arg7 harg7 arg8 harg8 arg9 harg9 arg10 harg10 hc0 hc1 x0 x1 x2 x3 x4 x5 x6 xs0 = k1_pay3 (k1_pay2 x1 x0 x2 x3 x4 xs0) x5 x6 := by
  unfold out1_C
  rw [View.read_writes_eq_canon _ _ _ (cover1_C c i arg2 harg2 arg3 harg3 arg4 harg4 arg5 harg5 arg6 harg6 arg7 harg7 arg8 harg8 arg9 harg9 arg10 harg10 hc0 hc1 x0 x1 x2 x3 x4 x5 x6 xs0)]
  unfold kernelRun1_C
  dsimp only
  sl_unfold_words
  rw [View.canon_unit_zero zeros2]
  simp only [View.readAt_eq_ld, Memref.IsWhole.read_unread, View.ld_unit_zero (S := S128x128) zeros2, View.ld_unit_zero (S := S128) zeros1]
  rw [View.readCov_unit_zero (S := S128x128) arg10.view zeros2]

end Cert.KernelIdeal.Conv

end
-- ==== Proof.KernelIdealGated.lean ====
/-
  What the second kernel region's accumulator holds, at the exact reading. Point t of the 8 x 8 grid is the pair
  (i, j) = (t / 8, t mod 8); its blocks are rows j*128 .. j*128+127 of a and of x, rows i*128 .. of b, block (i, j) of
  adj, and b1, W, bias whole. For row r = i*128 + p and column q, the neighbour n contributes
  term n = (S[r,n] * adj[r,n]) * x[n,q], and after the point the accumulator's entry (p, q) is the sum of the terms
  of the neighbours n < (j+1)*128: by induction on the point, each point adding its 128 neighbours to what the
  point before left, the first of a row starting from the cleared accumulator.
-/
import proofs.«170047_j79989470921007_1_alg».proof.Proof.KernelIdealProducts
import proofs.«170047_j79989470921007_1_alg».proof.Proof.KernelIdealPieces

set_option maxRecDepth 16384

noncomputable section

open scoped BigOperators

namespace Cert.KernelIdeal.Result

open Cert.KernelIdeal Cert.KernelIdeal.Gen Cert.KernelIdeal.Whole
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The blocks at a point -/

/-- The printed index maps over the grid: which block of each array point t = (i, j) stages. -/
theorem idx_facts1 : ∀ t : Fin cfg1.N,
    win1_0.index t (0 : Fin 2) = t.val % 8 ∧ win1_0.index t (1 : Fin 2) = 0
    ∧ win1_1.index t (0 : Fin 2) = t.val / 8 ∧ win1_1.index t (1 : Fin 2) = 0
    ∧ win1_2.index t (0 : Fin 1) = 0
    ∧ win1_3.index t (0 : Fin 2) = t.val / 8 ∧ win1_3.index t (1 : Fin 2) = t.val % 8
    ∧ win1_4.index t (0 : Fin 2) = t.val % 8 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val / 8 ∧ win1_7.index t (1 : Fin 2) = 0 :=
  (by decide +kernel : ∀ t : Fin grid1.N, _)

theorem blk1_0 (c : Dev nD) (t : Fin cfg1.N) (jj f : Fin 128) (n : Fin 1024) (hn : n.val = t.val % 8 * 128 + jj.val) :
    Conv.iblk1 (V2 m ρ) c 0 t (ix2 jj f) = GatedConv.projA (xOf m c) (w1Of m c) n f := by
  obtain ⟨e0, e1, -⟩ := idx_facts1 t
  show V2 m ρ c main_v4_0 (((cfg1.win 0).blk t).view.emb (ix2 jj f)) = _
  rw [found2_a]
  have hi : ((cfg1.win 0).blk t).view.emb (ix2 jj f) = ix2 n f := by
    funext a; apply Fin.ext
    match a with
    | ⟨0, _⟩ => show win1_0.index t (0 : Fin 2) * 128 + 1 * jj.val = n.val; omega
    | ⟨1, _⟩ => show win1_0.index t (1 : Fin 2) * 128 + 1 * f.val = f.val; omega
  rw [hi]; rfl
theorem blk1_1 (c : Dev nD) (t : Fin cfg1.N) (p f : Fin 128) (r : Fin 1024) (hr : r.val = t.val / 8 * 128 + p.val) :
    Conv.iblk1 (V2 m ρ) c 1 t (ix2 p f) = GatedConv.projB (xOf m c) (w1Of m c) r f := by
  obtain ⟨-, -, e0, e1, -⟩ := idx_facts1 t
  show V2 m ρ c main_v4_1 (((cfg1.win 1).blk t).view.emb (ix2 p f)) = _
  rw [found2_b]
  have hi : ((cfg1.win 1).blk t).view.emb (ix2 p f) = ix2 r f := by
    funext a; apply Fin.ext
    match a with
    | ⟨0, _⟩ => show win1_1.index t (0 : Fin 2) * 128 + 1 * p.val = r.val; omega
    | ⟨1, _⟩ => show win1_1.index t (1 : Fin 2) * 128 + 1 * f.val = f.val; omega
  rw [hi]; rfl
theorem blk1_2 (c : Dev nD) (t : Fin cfg1.N) (f : Fin 128) :
    Conv.iblk1 (V2 m ρ) c 2 t (ix1 f) = b1Of m c (ix1 f) := by
  obtain ⟨-, -, -, -, e0, -⟩ := idx_facts1 t
  show V2 m ρ c main_arg6 (((cfg1.win 2).blk t).view.emb (ix1 f)) = _
  rw [found2_b1]
  refine congrArg (b1Of m c) (funext fun a => Fin.ext ?_)
  match a with
  | ⟨0, _⟩ => show win1_2.index t (0 : Fin 1) * 128 + 1 * f.val = f.val; omega
theorem blk1_3 (c : Dev nD) (t : Fin cfg1.N) (p jj : Fin 128) (r n : Fin 1024) (hr : r.val = t.val / 8 * 128 + p.val) (hn : n.val = t.val % 8 * 128 + jj.val) :
    Conv.iblk1 (V2 m ρ) c 3 t (ix2 p jj) = adjOf m c (ix2 r n) := by
  obtain ⟨-, -, -, -, -, e0, e1, -⟩ := idx_facts1 t
  show V2 m ρ c main_arg1 (((cfg1.win 3).blk t).view.emb (ix2 p jj)) = _
  rw [found2_adj]
  refine congrArg (adjOf m c) (funext fun a => Fin.ext ?_)
  match a with
  | ⟨0, _⟩ => show win1_3.index t (0 : Fin 2) * 128 + 1 * p.val = r.val; omega
  | ⟨1, _⟩ => show win1_3.index t (1 : Fin 2) * 128 + 1 * jj.val = n.val; omega
theorem blk1_4 (c : Dev nD) (t : Fin cfg1.N) (jj q : Fin 128) (n : Fin 1024) (hn : n.val = t.val % 8 * 128 + jj.val) :
    Conv.iblk1 (V2 m ρ) c 4 t (ix2 jj q) = xOf m c (ix2 n q) := by
  obtain ⟨-, -, -, -, -, -, -, e0, e1, -⟩ := idx_facts1 t
  show V2 m ρ c main_arg0 (((cfg1.win 4).blk t).view.emb (ix2 jj q)) = _
  rw [found2_x]
  refine congrArg (xOf m c) (funext fun a => Fin.ext ?_)
  match a with
  | ⟨0, _⟩ => show win1_4.index t (0 : Fin 2) * 128 + 1 * jj.val = n.val; omega
  | ⟨1, _⟩ => show win1_4.index t (1 : Fin 2) * 128 + 1 * q.val = q.val; omega
theorem blk1_5 (c : Dev nD) (t : Fin cfg1.N) (g o : Fin 128) :
    Conv.iblk1 (V2 m ρ) c 5 t (ix2 g o) = wOf m c (ix2 g o) := by
  obtain ⟨-, -, -, -, -, -, -, -, -, e0, e1, -⟩ := idx_facts1 t
  show V2 m ρ c main_arg3 (((cfg1.win 5).blk t).view.emb (ix2 g o)) = _
  rw [found2_w]
  refine congrArg (wOf m c) (funext fun a => Fin.ext ?_)
  match a with
  | ⟨0, _⟩ => show win1_5.index t (0 : Fin 2) * 128 + 1 * g.val = g.val; omega
  | ⟨1, _⟩ => show win1_5.index t (1 : Fin 2) * 128 + 1 * o.val = o.val; omega
theorem blk1_6 (c : Dev nD) (t : Fin cfg1.N) (o : Fin 128) :
    Conv.iblk1 (V2 m ρ) c 6 t (ix1 o) = biasOf m c (ix1 o) := by
  obtain ⟨-, -, -, -, -, -, -, -, -, -, -, e0, -⟩ := idx_facts1 t
  show V2 m ρ c main_arg4 (((cfg1.win 6).blk t).view.emb (ix1 o)) = _
  rw [found2_bias]
  refine congrArg (biasOf m c) (funext fun a => Fin.ext ?_)
  match a with
  | ⟨0, _⟩ => show win1_6.index t (0 : Fin 1) * 128 + 1 * o.val = o.val; omega

/-! ## One neighbour's term, and the partial sums -/

/-- Neighbour n's contribution to support[r, q] (zero past the last node). -/
def term (c : Dev nD) (r : Fin 1024) (q : Fin 128) (n : ℕ) : EReal :=
  if h : n < 1024 then (GatedConv.gateSum (xOf m c) (w1Of m c) (b1Of m c) r ⟨n, h⟩ * adjOf m c (ix2 r ⟨n, h⟩)) * xOf m c (ix2 ⟨n, h⟩ q) else 0
/-- The sum over the first k neighbours. -/
def partialSum (c : Dev nD) (r : Fin 1024) (q : Fin 128) (k : ℕ) : EReal := ∑ n ∈ Finset.range k, term m c r q n

theorem support_eq (c : Dev nD) (r : Fin 1024) (q : Fin 128) :
    GatedConv.support (xOf m c) (adjOf m c) (w1Of m c) (b1Of m c) r q = partialSum m c r q 1024 := by
  unfold GatedConv.support partialSum
  rw [← Fin.sum_univ_eq_sum_range (fun n => term m c r q n) 1024]
  exact Finset.sum_congr rfl fun j _ => by unfold term; rw [dif_pos j.isLt]

theorem partialSum_zero (c : Dev nD) (r : Fin 1024) (q : Fin 128) : partialSum m c r q 0 = 0 := by
  unfold partialSum; simp

theorem partialSum_step (c : Dev nD) (r : Fin 1024) (q : Fin 128) (j : ℕ) :
    partialSum m c r q ((j + 1) * 128) = partialSum m c r q (j * 128) + ∑ jj : Fin 128, term m c r q (j * 128 + jj.val) := by
  unfold partialSum
  rw [show (j + 1) * 128 = j * 128 + 128 by ring, Finset.sum_range_add, Fin.sum_univ_eq_sum_range (fun x => term m c r q (j * 128 + x)) 128]

/-! ## The accumulator -/

/-- One point's update of the accumulator at entry (p, q): what it held plus the point's 128 terms. -/
theorem acc_step (c : Dev nD) (t : Fin cfg1.N) (p q : Fin 128) (r : Fin 1024) (hr : r.val = t.val / 8 * 128 + p.val)
    (prev : Vec Ideal S128x128 .f32) :
    k1_pay2 (F := Ideal) (Conv.iblk1 (V2 m ρ) c 1 t) (Conv.iblk1 (V2 m ρ) c 0 t) (Conv.iblk1 (V2 m ρ) c 2 t) (Conv.iblk1 (V2 m ρ) c 3 t) (Conv.iblk1 (V2 m ρ) c 4 t) prev (ix2 p q)
      = prev (ix2 p q) + ∑ jj : Fin 128, term m c r q (t.val % 8 * 128 + jj.val) := by
  refine (PayloadValue.k1_pay2_apply _ _ _ _ _ _ p q).trans ?_
  refine congrArg (prev (ix2 p q) + ·) (Finset.sum_congr rfl fun jj _ => ?_)
  have hN : t.val < 64 := lt_of_lt_of_eq t.isLt (show cfg1.N = 64 from N_1)
  have hlt : t.val % 8 * 128 + jj.val < 1024 := by have := jj.isLt; omega
  unfold term
  rw [dif_pos hlt, blk1_3 m ρ c t p jj r ⟨_, hlt⟩ hr rfl, blk1_4 m ρ c t jj q ⟨_, hlt⟩ rfl]
  unfold GatedConv.gateSum
  refine congrArg (fun s => s * _ * _) (Finset.sum_congr rfl fun f _ => ?_)
  rw [blk1_1 m ρ c t p f r hr, blk1_0 m ρ c t jj f ⟨_, hlt⟩ rfl, blk1_2 m ρ c t f]

/-- Adding one block of 128 terms to the sum of the first j blocks gives the sum of the first j + 1. -/
theorem acc_close (c : Dev nD) (r : Fin 1024) (q : Fin 128) (j : ℕ) (prev : EReal) (hprev : prev = partialSum m c r q (j * 128)) :
    prev + ∑ jj : Fin 128, term m c r q (j * 128 + jj.val) = partialSum m c r q ((j + 1) * 128) := by
  rw [hprev, partialSum_step]

/-- THE INVARIANT: after position n = (i, j) the accumulator's entry (p, q) is the sum of the first (j+1)*128
    terms of row i*128 + p. -/
theorem acc_eq (c : Dev nD) : ∀ (n : ℕ) (hn : n < cfg1.N) (p q : Fin 128) (r : Fin 1024) (hr : r.val = n / 8 * 128 + p.val),
    (Conv.outsAt1 (V2 m ρ) c n hn).2 (ix2 p q) = partialSum m c r q ((n % 8 + 1) * 128) := by
  intro n
  induction n with
  | zero =>
    intro hn p q r hr
    have hz : k1_pay1 (F := Ideal) (ix2 p q) = partialSum m c r q (0 % 8 * 128) := by
      rw [PayloadValue.k1_pay1_apply]; exact (partialSum_zero m c r q).symm
    rw [Conv.outsAt1_A (V2 m ρ) c ⟨0, hn⟩ (Nat.zero_mod _) (by show ¬ (0 % 8 = 7); decide)]
    dsimp only
    unfold Conv.accA
    rw [Conv.sout1_A_eq]
    exact (acc_step m ρ c ⟨0, hn⟩ p q r hr _).trans (acc_close m c r q (0 % 8) _ hz)
  | succ k ih =>
    intro hn p q r hr
    have hN : k + 1 < 64 := lt_of_lt_of_eq hn (show cfg1.N = 64 from N_1)
    by_cases h0 : (k + 1) % 8 = 0
    · have hz : k1_pay1 (F := Ideal) (ix2 p q) = partialSum m c r q ((k + 1) % 8 * 128) := by
        rw [PayloadValue.k1_pay1_apply, h0]; exact (partialSum_zero m c r q).symm
      rw [Conv.outsAt1_A (V2 m ρ) c ⟨k + 1, hn⟩ h0 (fun h => by have h' : (k + 1) % 8 = 7 := h; omega)]
      dsimp only
      unfold Conv.accA
      rw [Conv.sout1_A_eq]
      exact (acc_step m ρ c ⟨k + 1, hn⟩ p q r hr _).trans (acc_close m c r q ((k + 1) % 8) _ hz)
    · have hprev : (Conv.outsAt1 (V2 m ρ) c k (Nat.lt_of_succ_lt hn)).2 (ix2 p q) = partialSum m c r q ((k + 1) % 8 * 128) := by
        rw [ih (Nat.lt_of_succ_lt hn) p q r (by omega)]
        exact congrArg (partialSum m c r q) (by omega)
      by_cases h1 : (k + 1) % 8 = 7
      · rw [Conv.outsAt1_C (V2 m ρ) c ⟨k + 1, hn⟩ h0 h1]
        dsimp only
        unfold Conv.accC
        rw [Conv.sout1_C_eq]
        exact (acc_step m ρ c ⟨k + 1, hn⟩ p q r hr _).trans (acc_close m c r q ((k + 1) % 8) _ hprev)
      · rw [Conv.outsAt1_B (V2 m ρ) c ⟨k + 1, hn⟩ h0 h1]
        dsimp only
        unfold Conv.accB
        rw [Conv.sout1_B_eq]
        exact (acc_step m ρ c ⟨k + 1, hn⟩ p q r hr _).trans (acc_close m c r q ((k + 1) % 8) _ hprev)

end Cert.KernelIdeal.Result

end
-- ==== Proof.KernelIdealResult.lean ====
/-
  The kernel program's result, at the exact reading. At a point with j = 7 the body stores into output block i
  the accumulator (by then the whole sum over the 1024 neighbours, support[r, g]) times W plus the bias: block i of
  the specification's out. The eight points with j = 7 cover the result array, so it ends holding out of the
  argument arrays; with the frame this is the kernel's run as the value claim reads it.
-/
import proofs.«170047_j79989470921007_1_alg».proof.Proof.KernelIdealGated

set_option maxRecDepth 16384

noncomputable section

open scoped BigOperators

namespace Cert.KernelIdeal.Result

open Cert.KernelIdeal Cert.KernelIdeal.Gen Cert.KernelIdeal.Whole
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The specification's result for core c's argument arrays. -/
def outArr (c : Dev nD) : S1024x128.Idx → EReal :=
  GatedConv.out (xOf m c) (adjOf m c) (wOf m c) (biasOf m c) (w1Of m c) (b1Of m c)

/-- What a point with j = 7 writes back is its block of outArr. -/
theorem flushed1_7 (c : Dev nD) (t : Fin cfg1.N) (hf : (cfg1.win 7).flush t = true) :
    (Conv.dat1 (V2 m ρ) c).flushed 7 t = ((cfg1.win 7).blk t).view.read (Elt Ideal) (outArr m c) := by
  have h1 : t.val % 8 = 7 := (flush1_7 t).mp hf
  have h0 : ¬t.val % 8 = 0 := by omega
  have hN : t.val < 64 := lt_of_lt_of_eq t.isLt (show cfg1.N = 64 from N_1)
  show (cfg1.win 7).cut (grid1.coords t) ((Conv.dat1 (V2 m ρ) c).after 7 t) = _
  rw [Conv.after1_7, Conv.outsAt1_C (V2 m ρ) c t h0 h1]
  show Conv.outC (V2 m ρ) c t h0 h1 _ = _
  unfold Conv.outC
  rw [Conv.out1_C_eq]
  obtain ⟨-, -, -, -, -, -, -, -, -, -, -, -, e0, e1⟩ := idx_facts1 t
  funext j
  obtain ⟨p, o, rfl⟩ : ∃ (p : Fin 128) (o : Fin 128), j = ix2 p o := ⟨j 0, j 1, eq_ix2 j⟩
  refine (PayloadValue.k1_pay3_apply _ _ _ p o).trans ?_
  have hlt : t.val / 8 * 128 + p.val < 1024 := by have := p.isLt; omega
  have hi : ((cfg1.win 7).blk t).view.emb (ix2 p o) = ix2 (⟨t.val / 8 * 128 + p.val, hlt⟩ : Fin 1024) o := by
    funext a; apply Fin.ext
    match a with
    | ⟨0, _⟩ => show win1_7.index t (0 : Fin 2) * 128 + 1 * p.val = t.val / 8 * 128 + p.val; omega
    | ⟨1, _⟩ => show win1_7.index t (1 : Fin 2) * 128 + 1 * o.val = o.val; omega
  show _ = outArr m c (((cfg1.win 7).blk t).view.emb (ix2 p o))
  rw [hi]
  show _ = GatedConv.outAt (xOf m c) (adjOf m c) (wOf m c) (biasOf m c) (w1Of m c) (b1Of m c) ⟨t.val / 8 * 128 + p.val, hlt⟩ o
  unfold GatedConv.outAt
  rw [blk1_6]
  refine congrArg (· + biasOf m c (ix1 o)) (Finset.sum_congr rfl fun g _ => ?_)
  rw [blk1_5, support_eq]
  refine congrArg (· * wOf m c (ix2 g o)) ?_
  have e := acc_eq m ρ c t.val t.isLt p g ⟨t.val / 8 * 128 + p.val, hlt⟩ rfl
  rw [Conv.outsAt1_C (V2 m ρ) c t h0 h1] at e
  have e' : Conv.accC (V2 m ρ) c t h0 h1 (Conv.outsAt1 (V2 m ρ) c (t.val - 1) (Nat.lt_of_le_of_lt (Nat.sub_le _ _) t.isLt)).2 (ix2 p g)
      = partialSum m c ⟨t.val / 8 * 128 + p.val, hlt⟩ g ((t.val % 8 + 1) * 128) := e
  unfold Conv.accC at e'
  rw [Conv.sout1_C_eq] at e'
  rw [e']
  exact congrArg (partialSum m c _ g) (by omega)

/-- An index lies in point t's block of the result iff each coordinate lies in the block's range. -/
theorem mem_blk1_7 (t : Fin cfg1.N) (i : S1024x128.Idx) :
    i ∈ ((cfg1.win 7).blk t).view.set ↔ ∀ a : Fin 2, win1_7.index t a * S128x128.size a ≤ (i a).val ∧ (i a).val < win1_7.index t a * S128x128.size a + S128x128.size a := by
  show i ∈ ((View.whole main_v5).slice (win1_7.rect t)).set ↔ _
  rw [View.set_slice_whole, Rect.mem_set_unit]
  exact Iff.rfl

/-- The result array after the second region: row r is written by the point (r / 128, 7). -/
theorem final1_7 (c : Dev nD) : (Conv.dat1 (V2 m ρ) c).arrAt 7 cfg1.N = outArr m c :=
  (Conv.dat1 (V2 m ρ) c).arrAt_eq_of_cover 7 (outArr m c) (fun t hf => flushed1_7 m ρ c t hf) (fun i => by
    have h0 : (i 0).val < 1024 := (i 0).isLt
    have h1 : (i 1).val < 128 := (i 1).isLt
    have ht : ((⟨(i 0).val / 128 * 8 + 7, lt_of_lt_of_eq (show (i 0).val / 128 * 8 + 7 < 64 by omega) N_1.symm⟩ : Fin cfg1.N)).val = (i 0).val / 128 * 8 + 7 := rfl
    generalize (⟨(i 0).val / 128 * 8 + 7, lt_of_lt_of_eq (show (i 0).val / 128 * 8 + 7 < 64 by omega) N_1.symm⟩ : Fin cfg1.N) = t at ht
    refine ⟨t, (flush1_7 t).mpr (by omega), ?_⟩
    rw [mem_blk1_7]
    obtain ⟨-, -, -, -, -, -, -, -, -, -, -, -, e0, e1⟩ := idx_facts1 t
    intro a
    match a with
    | ⟨0, _⟩ => show win1_7.index t (0 : Fin 2) * 128 ≤ (i 0).val ∧ (i 0).val < win1_7.index t (0 : Fin 2) * 128 + 128; omega
    | ⟨1, _⟩ => show win1_7.index t (1 : Fin 2) * 128 ≤ (i 1).val ∧ (i 1).val < win1_7.index t (1 : Fin 2) * 128 + 128; omega)

/-- The kernel program's run: it terminates, its result array ends at the specification's out of the argument
    arrays, and the argument arrays end unchanged. -/
theorem run : θ_run defs (onTc (τ := τ) (main (F := Ideal))) ⟨m, fun _ => 0, ρ⟩ (fun r => ∀ c : Dev nD,
      r.2.mem ((c.tc : Thread nD τ).loc main_v5) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(result_at m ρ r h c).trans (final1_7 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.KernelIdeal.Result

end
-- ==== Proof.RefValue.lean ====
/-
  The reference's result, read index by index at the exact reading.

  The reference computes, for 1024 nodes with 128 features, the two halves of the gate's linear map
  (a[j,f] and b[i,f]), the logistic of their sum plus the gate's bias for every triple (i,j,f), the
  product of that with the adjacency weight adj[i,j], the sum of those products over f, and then two
  matrix products and a bias. This module reads each of those stages at an index built from its
  coordinates and identifies the last one with the specification Cert.GatedConv.out.

  The only algebra is one law of the extended reals: for nonnegative s_f and any c,
  0 + sum_f (s_f * c) = (sum_f s_f) * c. (Multiplication does not distribute over addition on the
  extended reals in general; it does over nonnegative summands.)
-/
import proofs.«170047_j79989470921007_1_alg».proof.Proof.Gen.ReferenceIdeal.Read
import proofs.«170047_j79989470921007_1_alg».proof.Proof.GatedConv
import proofs.«170047_j79989470921007_1_alg».proof.Proof.LibNonnegFactor

noncomputable section

open scoped BigOperators

namespace Cert.ReferenceIdeal.RefValue

open Cert.ReferenceIdeal Cert.ReferenceIdeal.Gen Cert.ReferenceIdeal.Read Idealize.ShloMosaic
  Idealize.ShloMosaic.ValueIdx Cert.GatedConv Cert.LibNonnegFactor

/-! ## The reference's stages at an index -/

section Stages

variable (x0 : (⟨S1024x128, .f32⟩ : BufTy).Contents (Elt Ideal)) (x1 : (⟨S1024x1024, .f32⟩ : BufTy).Contents (Elt Ideal))
  (x3 : (⟨S128x128, .f32⟩ : BufTy).Contents (Elt Ideal)) (x4 : (⟨S128, .f32⟩ : BufTy).Contents (Elt Ideal))
  (x5 : (⟨S128x256, .f32⟩ : BufTy).Contents (Elt Ideal)) (x6 : (⟨S128, .f32⟩ : BufTy).Contents (Elt Ideal))

/-- The first matrix product is the sender half a[j,g]: the slice of columns 0..127 of the gate's
    weights, transposed, read at (k,g) is w1[g,k]. -/
theorem sender_eq (j : Fin 1024) (g : Fin 128) :
    val_main_v2 (F := Ideal) x0 x5 (ix2 j g) = projA x0 x5 j g := by
  rw [val_main_v2_apply]
  unfold projA
  refine Finset.sum_congr rfl fun k _ => ?_
  rw [val_main_v1_apply, val_main_v0_apply]
  have e1 : lidx_main_v2 (ix2 j g) k = ix2 j k :=
    funext fun a => Fin.ext (by match a with | ⟨0, _⟩ => rfl | ⟨1, _⟩ => rfl)
  have e2 : idx_main_v0 (idx_main_v1 (ridx_main_v2 (ix2 j g) k)) = ix2 g (colA k) :=
    funext fun a => Fin.ext (by match a with | ⟨0, _⟩ => rfl | ⟨1, _⟩ => rfl)
  rw [e1, e2]

/-- The second matrix product is the receiver half b[i,g]: the slice of columns 128..255, transposed,
    read at (k,g) is w1[g,128+k]. -/
theorem receiver_eq (i : Fin 1024) (g : Fin 128) :
    val_main_v5 (F := Ideal) x0 x5 (ix2 i g) = projB x0 x5 i g := by
  rw [val_main_v5_apply]
  unfold projB
  refine Finset.sum_congr rfl fun k _ => ?_
  rw [val_main_v4_apply, val_main_v3_apply]
  have e1 : lidx_main_v5 (ix2 i g) k = ix2 i k :=
    funext fun a => Fin.ext (by match a with | ⟨0, _⟩ => rfl | ⟨1, _⟩ => rfl)
  have e2 : idx_main_v3 (idx_main_v4 (ridx_main_v5 (ix2 i g) k)) = ix2 g (colB k) :=
    funext fun a => Fin.ext (by match a with | ⟨0, _⟩ => rfl | ⟨1, _⟩ => rfl)
  rw [e1, e2]

/-- The gate of the triple (i,j,f). The reference broadcasts a over the receivers and b over the senders,
    adds them as a + b where the specification has b + a, adds the gate's bias, and spells the logistic
    function as 1 / (1 + exp (-t)) with the literal 1.0 — which is the logistic function's definition. -/
theorem gate_eq (i j : Fin 1024) (f : Fin 128) :
    val_main_v19 (F := Ideal) x0 x5 x6 (ix3 i j f)
      = Ideal.logistic ((projB x0 x5 i f + projA x0 x5 j f) + x6 (ix1 f)) := by
  rw [val_main_v19_apply, val_main_v18_apply, val_main_cst_0_apply, val_main_v17_apply, val_main_v16_apply,
    val_main_cst_apply, val_main_v15_apply, val_main_v14_apply, val_main_v13_apply, val_main_v10_apply,
    val_main_v8_apply, val_main_v6_apply, val_main_v9_apply, val_main_v7_apply, val_main_v12_apply,
    val_main_v11_apply]
  have ea : idx_main_v6 (idx_main_v8 (ix3 i j f)) = ix2 j f :=
    funext fun a => Fin.ext (by match a with | ⟨0, _⟩ => rfl | ⟨1, _⟩ => rfl)
  have eb : idx_main_v7 (idx_main_v9 (ix3 i j f)) = ix2 i f :=
    funext fun a => Fin.ext (by match a with | ⟨0, _⟩ => rfl | ⟨1, _⟩ => rfl)
  have ec : idx_main_v11 (idx_main_v12 (ix3 i j f)) = ix1 f :=
    funext fun a => Fin.ext (by match a with | ⟨0, _⟩ => rfl)
  rw [ea, eb, ec, sender_eq, receiver_eq]
  simp only [Ideal.hostDivf_def, Ideal.ofBits_def, Ideal.addf_def, Ideal.hostUnary_exp_def, Ideal.hostNegf_def,
    Ideal.negf_def, ofBits_one_f32]
  rw [add_comm (projA x0 x5 j f) (projB x0 x5 i f)]
  rfl

/-- The gate times the adjacency weight, for the triple (i,j,f): adj is broadcast along the feature axis. -/
theorem gated_eq (i j : Fin 1024) (f : Fin 128) :
    val_main_v22 (F := Ideal) x0 x1 x5 x6 (ix3 i j f)
      = Ideal.logistic ((projB x0 x5 i f + projA x0 x5 j f) + x6 (ix1 f)) * x1 (ix2 i j) := by
  rw [val_main_v22_apply, gate_eq, val_main_v21_apply, val_main_v20_apply]
  have e : idx_main_v20 (idx_main_v21 (ix3 i j f)) = ix2 i j :=
    funext fun a => Fin.ext (by match a with | ⟨0, _⟩ => rfl | ⟨1, _⟩ => rfl)
  rw [e]
  rfl

/-- The sum over the features, started from the literal 0. The reference multiplies by adj[i,j] inside
    the sum; every gate is nonnegative, so the factor comes out: the sum is S[i,j] * adj[i,j]. -/
theorem gateSum_mul_eq (i j : Fin 1024) :
    val_main_v23 (F := Ideal) x0 x1 x5 x6 (ix2 i j) = gateSum x0 x5 x6 i j * x1 (ix2 i j) := by
  rw [val_main_v23_apply, val_main_cst_1_apply, Ideal.ofBits_def, Ideal.ofBits_zero_f32]
  have e : ∀ k : Fin 128, idx_main_v23 (ix2 i j) k = ix3 i j k := fun k =>
    funext fun a => Fin.ext (by match a with | ⟨0, _⟩ => rfl | ⟨1, _⟩ => rfl | ⟨2, _⟩ => rfl)
  simp only [e, gated_eq]
  unfold gateSum
  exact zero_add_sum_mul _ _ fun _ => logistic_nonneg _

/-- The product with the node features is the specification's support[i,g]. -/
theorem support_eq (i : Fin 1024) (g : Fin 128) :
    val_main_v24 (F := Ideal) x0 x1 x5 x6 (ix2 i g) = support x0 x1 x5 x6 i g := by
  rw [val_main_v24_apply]
  unfold support
  refine Finset.sum_congr rfl fun j _ => ?_
  have el : lidx_main_v24 (ix2 i g) j = ix2 i j :=
    funext fun a => Fin.ext (by match a with | ⟨0, _⟩ => rfl | ⟨1, _⟩ => rfl)
  have er : ridx_main_v24 (ix2 i g) j = ix2 j g :=
    funext fun a => Fin.ext (by match a with | ⟨0, _⟩ => rfl | ⟨1, _⟩ => rfl)
  rw [el, er, gateSum_mul_eq]

/-- The product with the output layer's weights. -/
theorem layer_eq (i : Fin 1024) (o : Fin 128) :
    val_main_v25 (F := Ideal) x0 x1 x3 x5 x6 (ix2 i o) = ∑ g : Fin 128, support x0 x1 x5 x6 i g * x3 (ix2 g o) := by
  rw [val_main_v25_apply]
  refine Finset.sum_congr rfl fun g _ => ?_
  have el : lidx_main_v25 (ix2 i o) g = ix2 i g :=
    funext fun a => Fin.ext (by match a with | ⟨0, _⟩ => rfl | ⟨1, _⟩ => rfl)
  have er : ridx_main_v25 (ix2 i o) g = ix2 g o :=
    funext fun a => Fin.ext (by match a with | ⟨0, _⟩ => rfl | ⟨1, _⟩ => rfl)
  rw [el, er, support_eq]

/-- The output bias, broadcast over the nodes. -/
theorem bias_eq (i : Fin 1024) (o : Fin 128) : val_main_v27 (F := Ideal) x4 (ix2 i o) = x4 (ix1 o) := by
  rw [val_main_v27_apply, val_main_v26_apply]
  exact congrArg x4 (funext fun a => Fin.ext (by match a with | ⟨0, _⟩ => rfl))

end Stages

/-! ## The reference's result is the specification -/

/-- The reference's last stage is Cert.GatedConv.out, index by index. -/
theorem val_main_v28_eq_out (x0 : (⟨S1024x128, .f32⟩ : BufTy).Contents (Elt Ideal)) (x1 : (⟨S1024x1024, .f32⟩ : BufTy).Contents (Elt Ideal)) (x3 : (⟨S128x128, .f32⟩ : BufTy).Contents (Elt Ideal)) (x4 : (⟨S128, .f32⟩ : BufTy).Contents (Elt Ideal)) (x5 : (⟨S128x256, .f32⟩ : BufTy).Contents (Elt Ideal)) (x6 : (⟨S128, .f32⟩ : BufTy).Contents (Elt Ideal)) :
    Cert.ReferenceIdeal.Read.val_main_v28 (F := Ideal) x0 x1 x3 x4 x5 x6 = Cert.GatedConv.out x0 x1 x3 x4 x5 x6 := by
  funext idx
  obtain ⟨i, o, rfl⟩ : ∃ (i : Fin 1024) (o : Fin 128), idx = ix2 i o := ⟨idx 0, idx 1, eq_ix2 idx⟩
  rw [out_ix2, val_main_v28_apply, layer_eq, bias_eq]
  rfl

end Cert.ReferenceIdeal.RefValue

end
-- ==== Proof.lean ====
/-
  The certificate of a gated graph convolution over 1024 nodes with 128 features.

  Both programs compute, for node features x, adjacency weights adj, the gate's weights w1 and bias b1, and the
  output layer W, bias:  out[i,o] = (sum_g (sum_j (S[i,j] * adj[i,j]) * x[j,g]) * W[g,o]) + bias[o],  where
  S[i,j] = sum_f sigma((b[i,f] + a[j,f]) + b1[f]),  a = x * w1[:, :128]^T,  b = x * w1[:, 128:]^T, and sigma is the
  logistic function.

  The kernel program does it in two regions: the first stores the two products a and b; the second walks an
  8 x 8 grid of blocks (i, j), sums the gate over its 128 features first, multiplies by the adjacency block, and
  accumulates the product with the feature block j in a scratch accumulator that it clears at j = 0 and, at j = 7,
  multiplies by W, adds the bias to and stores as output block i. The reference multiplies by adj inside the sum over
  the features and contracts over all 1024 neighbours at once. At the exact reading the two agree on every extended
  real input: the one law needed, sum_f (s_f * c) = (sum_f s_f) * c, holds because the logistic function is
  nonnegative; the rest is the commutativity of + and the regrouping of a sum of 1024 terms into 8 blocks of 128.
  The precondition (finite inputs) is not used.

  The frames of the two kernel programs are runs of the same shape at the two float instances: four host
  operations and two regions, every argument array read back to its launch contents through the boundaries. The
  reference's frame is its run with the result dropped. The kernel's idealization rewrote nothing.
-/
import proofs.«170047_j79989470921007_1_alg».proof.Defs
import proofs.«170047_j79989470921007_1_alg».proof.Proof.Gen.Kernel
import proofs.«170047_j79989470921007_1_alg».proof.Proof.Gen.KernelIdeal
import proofs.«170047_j79989470921007_1_alg».proof.Proof.Gen.ReferenceIdeal
import proofs.«170047_j79989470921007_1_alg».proof.Proof.Gen.ReferenceIdeal.Run
import proofs.«170047_j79989470921007_1_alg».proof.Proof.Gen.ReferenceIdeal.Read
import proofs.«170047_j79989470921007_1_alg».proof.Proof.Gen.Pre_finite_inputs
import proofs.«170047_j79989470921007_1_alg».proof.Proof.KernelWhole
import proofs.«170047_j79989470921007_1_alg».proof.Proof.KernelIdealResult
import proofs.«170047_j79989470921007_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Whole.frame (F := Bits) m ρ

theorem frame_kernel_ideal : Cert.frame_KernelIdeal := fun m ρ _ => Cert.KernelIdeal.Whole.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, end with the same result array:
    the specification's out of the arguments. -/
theorem algebraic : Cert.algebraic_KernelIdeal_ReferenceIdeal := by
  intro m ρ m' ρ' _ hagree
  refine ⟨fun c => Cert.KernelIdeal.Result.outArr m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v28_eq, Cert.ReferenceIdeal.RefValue.val_main_v28_eq_out, a0, a1, a3, a4, a5, a6]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
